-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x10 : Shape := ⟨2, ![1048576, 10]⟩
abbrev S10x20 : Shape := ⟨2, ![10, 20]⟩
abbrev S1x20 : Shape := ⟨2, ![1, 20]⟩
abbrev S20x2 : Shape := ⟨2, ![20, 2]⟩
abbrev S1x2 : Shape := ⟨2, ![1, 2]⟩
abbrev S_ : Shape := ⟨0, ![]⟩

class Facts : Prop where
  bcast_S_S1048576x10 : S_.BroadcastsInDim S1048576x10 (![] : Fin 0 → Fin S1048576x10.rank)
  reducesTo_S1048576x10_S_d0_1 : S1048576x10.ReducesTo [0, 1] S_
  h_S_ : 0 < S_.numel
  bcast_S_S10x20 : S_.BroadcastsInDim S10x20 (![] : Fin 0 → Fin S10x20.rank)
  reducesTo_S10x20_S_d0_1 : S10x20.ReducesTo [0, 1] S_
  bcast_S_S1x20 : S_.BroadcastsInDim S1x20 (![] : Fin 0 → Fin S1x20.rank)
  reducesTo_S1x20_S_d0_1 : S1x20.ReducesTo [0, 1] S_
  bcast_S_S20x2 : S_.BroadcastsInDim S20x2 (![] : Fin 0 → Fin S20x2.rank)
  reducesTo_S20x2_S_d0_1 : S20x2.ReducesTo [0, 1] S_
  bcast_S_S1x2 : S_.BroadcastsInDim S1x2 (![] : Fin 0 → Fin S1x2.rank)
  reducesTo_S1x2_S_d0_1 : S1x2.ReducesTo [0, 1] S_

variable [Facts]

def fn_part1 {F : FTy → Type} [FloatOps F] (main_arg4 : FVec F S1x2 .f32) (main_v13 : IVec S_ 1) (main_v16 : IVec S20x2 1) : IVec S_ 1 :=
  let main_c_5 : IVec S_ 1 := constantI S_ 1 1#1
  let main_v17 : IVec S_ 1 := (fun x v => Host.reduce IntOp.andi x v reducesTo_S20x2_S_d0_1 h_S_) main_v16 main_c_5
  let main_v18 : IVec S_ 1 := andi main_v13 main_v17
  let main_v19 : FVec F S1x2 .f32 := Host.absf main_arg4
  let main_cst_6 : FVec F S_ .f32 := constant S_ .f32 0x7F800000#32
  let main_v20 : FVec F S1x2 .f32 := broadcastInDim S1x2 ![] bcast_S_S1x2 main_cst_6
  let main_v21 : IVec S1x2 1 := cmpf .olt main_v19 main_v20
  let main_c_7 : IVec S_ 1 := constantI S_ 1 1#1
  let main_v22 : IVec S_ 1 := (fun x v => Host.reduce IntOp.andi x v reducesTo_S1x2_S_d0_1 h_S_) main_v21 main_c_7
  let main_v23 : IVec S_ 1 := andi main_v18 main_v22
  main_v23

def fn {F : FTy → Type} [FloatOps F] (main_arg0 : FVec F S1048576x10 .f32) (main_arg1 : FVec F S10x20 .f32) (main_arg2 : FVec F S1x20 .f32) (main_arg3 : FVec F S20x2 .f32) (main_arg4 : FVec F S1x2 .f32) : IVec S_ 1 :=
  let main_v0 : FVec F S1048576x10 .f32 := Host.absf main_arg0
  let main_cst : FVec F S_ .f32 := constant S_ .f32 0x7F800000#32
  let main_v1 : FVec F S1048576x10 .f32 := broadcastInDim S1048576x10 ![] bcast_S_S1048576x10 main_cst
  let main_v2 : IVec S1048576x10 1 := cmpf .olt main_v0 main_v1
  let main_c : IVec S_ 1 := constantI S_ 1 1#1
  let main_v3 : IVec S_ 1 := (fun x v => Host.reduce IntOp.andi x v reducesTo_S1048576x10_S_d0_1 h_S_) main_v2 main_c
  let main_v4 : FVec F S10x20 .f32 := Host.absf main_arg1
  let main_cst_0 : FVec F S_ .f32 := constant S_ .f32 0x7F800000#32
  let main_v5 : FVec F S10x20 .f32 := broadcastInDim S10x20 ![] bcast_S_S10x20 main_cst_0
  let main_v6 : IVec S10x20 1 := cmpf .olt main_v4 main_v5
  let main_c_1 : IVec S_ 1 := constantI S_ 1 1#1
  let main_v7 : IVec S_ 1 := (fun x v => Host.reduce IntOp.andi x v reducesTo_S10x20_S_d0_1 h_S_) main_v6 main_c_1
  let main_v8 : IVec S_ 1 := andi main_v3 main_v7
  let main_v9 : FVec F S1x20 .f32 := Host.absf main_arg2
  let main_cst_2 : FVec F S_ .f32 := constant S_ .f32 0x7F800000#32
  let main_v10 : FVec F S1x20 .f32 := broadcastInDim S1x20 ![] bcast_S_S1x20 main_cst_2
  let main_v11 : IVec S1x20 1 := cmpf .olt main_v9 main_v10
  let main_c_3 : IVec S_ 1 := constantI S_ 1 1#1
  let main_v12 : IVec S_ 1 := (fun x v => Host.reduce IntOp.andi x v reducesTo_S1x20_S_d0_1 h_S_) main_v11 main_c_3
  let main_v13 : IVec S_ 1 := andi main_v8 main_v12
  let main_v14 : FVec F S20x2 .f32 := Host.absf main_arg3
  let main_cst_4 : FVec F S_ .f32 := constant S_ .f32 0x7F800000#32
  let main_v15 : FVec F S20x2 .f32 := broadcastInDim S20x2 ![] bcast_S_S20x2 main_cst_4
  let main_v16 : IVec S20x2 1 := cmpf .olt main_v14 main_v15
  fn_part1 (F := F) main_arg4 main_v13 main_v16
-- ==== Kernel.lean ====
abbrev S1048576x10 : Shape := ⟨2, ![1048576, 10]⟩
abbrev S10x20 : Shape := ⟨2, ![10, 20]⟩
abbrev S1x20 : Shape := ⟨2, ![1, 20]⟩
abbrev S20x2 : Shape := ⟨2, ![20, 2]⟩
abbrev S1x2 : Shape := ⟨2, ![1, 2]⟩
abbrev S8x8 : Shape := ⟨2, ![8, 8]⟩
abbrev S_ : Shape := ⟨0, ![]⟩
abbrev S8x1x8x1 : Shape := ⟨4, ![8, 1, 8, 1]⟩
abbrev S1x10x1x20 : Shape := ⟨4, ![1, 10, 1, 20]⟩
abbrev S8x10x8x20 : Shape := ⟨4, ![8, 10, 8, 20]⟩
abbrev S80x160 : Shape := ⟨2, ![80, 160]⟩
abbrev S1x1x1x20 : Shape := ⟨4, ![1, 1, 1, 20]⟩
abbrev S1x1x8x20 : Shape := ⟨4, ![1, 1, 8, 20]⟩
abbrev S1x160 : Shape := ⟨2, ![1, 160]⟩
abbrev S1x20x1x2 : Shape := ⟨4, ![1, 20, 1, 2]⟩
abbrev S8x20x8x2 : Shape := ⟨4, ![8, 20, 8, 2]⟩
abbrev S160x16 : Shape := ⟨2, ![160, 16]⟩
abbrev S1x1x1x2 : Shape := ⟨4, ![1, 1, 1, 2]⟩
abbrev S1x1x8x2 : Shape := ⟨4, ![1, 1, 8, 2]⟩
abbrev S1x16 : Shape := ⟨2, ![1, 16]⟩
abbrev S131072x8x10 : Shape := ⟨3, ![131072, 8, 10]⟩
abbrev S131072x8x2 : Shape := ⟨3, ![131072, 8, 2]⟩
abbrev S2048x8x10 : Shape := ⟨3, ![2048, 8, 10]⟩
abbrev S2048x8x2 : Shape := ⟨3, ![2048, 8, 2]⟩
abbrev S2048x80 : Shape := ⟨2, ![2048, 80]⟩
abbrev S2048x160 : Shape := ⟨2, ![2048, 160]⟩
abbrev S2048x16 : Shape := ⟨2, ![2048, 16]⟩
abbrev S1048576x2 : Shape := ⟨2, ![1048576, 2]⟩

abbrev nBuf : Space → Nat
  | .hbm => 33
  | .vmem => 8
  | .smem => 0
  | _ => 0

abbrev bufTy : (tb : Table) → Fin (tcTables nBuf tb) → BufTy
  | .hbm, ⟨0, _⟩ => ⟨S1048576x10, .f32⟩
  | .hbm, ⟨1, _⟩ => ⟨S10x20, .f32⟩
  | .hbm, ⟨2, _⟩ => ⟨S1x20, .f32⟩
  | .hbm, ⟨3, _⟩ => ⟨S20x2, .f32⟩
  | .hbm, ⟨4, _⟩ => ⟨S1x2, .f32⟩
  | .hbm, ⟨5, _⟩ => ⟨S8x8, .i32⟩
  | .hbm, ⟨6, _⟩ => ⟨S8x8, .i32⟩
  | .hbm, ⟨7, _⟩ => ⟨S_, .i32⟩
  | .hbm, ⟨8, _⟩ => ⟨S8x8, .i32⟩
  | .hbm, ⟨9, _⟩ => ⟨S8x8, .i32⟩
  | .hbm, ⟨10, _⟩ => ⟨S8x8, .i1⟩
  | .hbm, ⟨11, _⟩ => ⟨S8x8, .f32⟩
  | .hbm, ⟨12, _⟩ => ⟨S8x1x8x1, .f32⟩
  | .hbm, ⟨13, _⟩ => ⟨S1x10x1x20, .f32⟩
  | .hbm, ⟨14, _⟩ => ⟨S8x10x8x20, .f32⟩
  | .hbm, ⟨15, _⟩ => ⟨S8x10x8x20, .f32⟩
  | .hbm, ⟨16, _⟩ => ⟨S8x10x8x20, .f32⟩
  | .hbm, ⟨17, _⟩ => ⟨S80x160, .f32⟩
  | .hbm, ⟨18, _⟩ => ⟨S1x1x1x20, .f32⟩
  | .hbm, ⟨19, _⟩ => ⟨S1x1x8x20, .f32⟩
  | .hbm, ⟨20, _⟩ => ⟨S1x160, .f32⟩
  | .hbm, ⟨21, _⟩ => ⟨S8x1x8x1, .f32⟩
  | .hbm, ⟨22, _⟩ => ⟨S1x20x1x2, .f32⟩
  | .hbm, ⟨23, _⟩ => ⟨S8x20x8x2, .f32⟩
  | .hbm, ⟨24, _⟩ => ⟨S8x20x8x2, .f32⟩
  | .hbm, ⟨25, _⟩ => ⟨S8x20x8x2, .f32⟩
  | .hbm, ⟨26, _⟩ => ⟨S160x16, .f32⟩
  | .hbm, ⟨27, _⟩ => ⟨S1x1x1x2, .f32⟩
  | .hbm, ⟨28, _⟩ => ⟨S1x1x8x2, .f32⟩
  | .hbm, ⟨29, _⟩ => ⟨S1x16, .f32⟩
  | .hbm, ⟨30, _⟩ => ⟨S131072x8x10, .f32⟩
  | .hbm, ⟨31, _⟩ => ⟨S131072x8x2, .f32⟩
  | .hbm, ⟨32, _⟩ => ⟨S1048576x2, .f32⟩
  | .local _ .vmem, ⟨0, _⟩ => ⟨S2048x8x10, .f32⟩
  | .local _ .vmem, ⟨1, _⟩ => ⟨S2048x8x10, .f32⟩
  | .local _ .vmem, ⟨2, _⟩ => ⟨S80x160, .f32⟩
  | .local _ .vmem, ⟨3, _⟩ => ⟨S1x160, .f32⟩
  | .local _ .vmem, ⟨4, _⟩ => ⟨S160x16, .f32⟩
  | .local _ .vmem, ⟨5, _⟩ => ⟨S1x16, .f32⟩
  | .local _ .vmem, ⟨6, _⟩ => ⟨S2048x8x2, .f32⟩
  | .local _ .vmem, ⟨7, _⟩ => ⟨S2048x8x2, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x8x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S80x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S160x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x8x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S8x8 : S_.BroadcastsInDim S8x8 (![] : Fin 0 → Fin S8x8.rank)
  bcast_S8x8_S8x1x8x1_0_2 : S8x8.BroadcastsInDim S8x1x8x1 (![0, 2] : Fin 2 → Fin S8x1x8x1.rank)
  bcast_S10x20_S1x10x1x20_1_3 : S10x20.BroadcastsInDim S1x10x1x20 (![1, 3] : Fin 2 → Fin S1x10x1x20.rank)
  bcast_S8x1x8x1_S8x10x8x20_0_1_2_3 : S8x1x8x1.BroadcastsInDim S8x10x8x20 (![0, 1, 2, 3] : Fin 4 → Fin S8x10x8x20.rank)
  bcast_S1x10x1x20_S8x10x8x20_0_1_2_3 : S1x10x1x20.BroadcastsInDim S8x10x8x20 (![0, 1, 2, 3] : Fin 4 → Fin S8x10x8x20.rank)
  shapeCasts_S8x10x8x20_S80x160 : S8x10x8x20.ShapeCasts S80x160
  shapeCasts_S1x20_S1x1x1x20 : S1x20.ShapeCasts S1x1x1x20
  bcast_S1x1x1x20_S1x1x8x20_0_1_2_3 : S1x1x1x20.BroadcastsInDim S1x1x8x20 (![0, 1, 2, 3] : Fin 4 → Fin S1x1x8x20.rank)
  shapeCasts_S1x1x8x20_S1x160 : S1x1x8x20.ShapeCasts S1x160
  bcast_S20x2_S1x20x1x2_1_3 : S20x2.BroadcastsInDim S1x20x1x2 (![1, 3] : Fin 2 → Fin S1x20x1x2.rank)
  bcast_S8x1x8x1_S8x20x8x2_0_1_2_3 : S8x1x8x1.BroadcastsInDim S8x20x8x2 (![0, 1, 2, 3] : Fin 4 → Fin S8x20x8x2.rank)
  bcast_S1x20x1x2_S8x20x8x2_0_1_2_3 : S1x20x1x2.BroadcastsInDim S8x20x8x2 (![0, 1, 2, 3] : Fin 4 → Fin S8x20x8x2.rank)
  shapeCasts_S8x20x8x2_S160x16 : S8x20x8x2.ShapeCasts S160x16
  shapeCasts_S1x2_S1x1x1x2 : S1x2.ShapeCasts S1x1x1x2
  bcast_S1x1x1x2_S1x1x8x2_0_1_2_3 : S1x1x1x2.BroadcastsInDim S1x1x8x2 (![0, 1, 2, 3] : Fin 4 → Fin S1x1x8x2.rank)
  shapeCasts_S1x1x8x2_S1x16 : S1x1x8x2.ShapeCasts S1x16
  shapeCasts_S1048576x10_S131072x8x10 : S1048576x10.ShapeCasts S131072x8x10
  inb_S2048x8x10_S2048x8x10_0_0_0 : ∀ a, (![0, 0, 0] : Fin 3 → Nat) a + S2048x8x10.size a ≤ S2048x8x10.size a
  h_S2048x8x10 : 0 < S2048x8x10.numel
  shapeCasts_S2048x8x10_S2048x8x10 : S2048x8x10.ShapeCasts S2048x8x10
  shapeCasts_S2048x8x10_S2048x80 : S2048x8x10.ShapeCasts S2048x80
  inb_S80x160_S80x160_0_0 : ∀ a, (![0, 0] : Fin 2 → Nat) a + S80x160.size a ≤ S80x160.size a
  h_S80x160 : 0 < S80x160.numel
  shapeCasts_S80x160_S80x160 : S80x160.ShapeCasts S80x160
  inb_S1x160_S1x160_0_0 : ∀ a, (![0, 0] : Fin 2 → Nat) a + S1x160.size a ≤ S1x160.size a
  h_S1x160 : 0 < S1x160.numel
  broadcasts_S1x160_S2048x160 : S1x160.Broadcasts S2048x160
  inb_S160x16_S160x16_0_0 : ∀ a, (![0, 0] : Fin 2 → Nat) a + S160x16.size a ≤ S160x16.size a
  h_S160x16 : 0 < S160x16.numel
  shapeCasts_S160x16_S160x16 : S160x16.ShapeCasts S160x16
  inb_S1x16_S1x16_0_0 : ∀ a, (![0, 0] : Fin 2 → Nat) a + S1x16.size a ≤ S1x16.size a
  h_S1x16 : 0 < S1x16.numel
  broadcasts_S1x16_S2048x16 : S1x16.Broadcasts S2048x16
  shapeCasts_S2048x16_S2048x8x2 : S2048x16.ShapeCasts S2048x8x2
  inb_S2048x8x2_S2048x8x2_0_0_0 : ∀ a, (![0, 0, 0] : Fin 3 → Nat) a + S2048x8x2.size a ≤ S2048x8x2.size a
  h_S2048x8x2 : 0 < S2048x8x2.numel
  shapeCasts_S131072x8x2_S1048576x2 : S131072x8x2.ShapeCasts S1048576x2
  dot_S2048x80_S80x160_S2048x160_1_0_0_1_n_n_wf : DotDims.WF S2048x80 S80x160 S2048x160 [1] [0] [0] [1] [] []
  dot_S2048x160_S160x16_S2048x16_1_0_0_1_n_n_wf : DotDims.WF S2048x160 S160x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x8x10.size a ≤ S131072x8x10.size a
  hwx0_0 : ∀ i : grid0.Coords, EltTy.bits .f32 = 32 ∨ (Rect.block (s := S131072x8x10) S2048x8x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S80x160.size a ≤ S80x160.size a
  hwx0_1 : ∀ i : grid0.Coords, EltTy.bits .f32 = 32 ∨ (Rect.block (s := S80x160) S80x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x160.size a ≤ S1x160.size a
  hwx0_2 : ∀ i : grid0.Coords, EltTy.bits .f32 = 32 ∨ (Rect.block (s := S1x160) S1x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x16.size a ≤ S160x16.size a
  hwx0_3 : ∀ i : grid0.Coords, EltTy.bits .f32 = 32 ∨ (Rect.block (s := S160x16) S160x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x8x2.size a ≤ S131072x8x2.size a
  hwx0_5 : ∀ i : grid0.Coords, EltTy.bits .f32 = 32 ∨ (Rect.block (s := S131072x8x2) S2048x8x2.size (cc0_transform_5 i) (hinb0_5 i)).WholeWords (EltTy.packing .f32)

variable [Facts₀]

def dot_S2048x80_S80x160_S2048x160_1_0_0_1_n_n : DotDims S2048x80 S80x160 S2048x160 where
  lhsContracting := [1]
  rhsContracting := [0]
  lhsNonContracting := [0]
  rhsNonContracting := [1]
  lhsBatch := []
  rhsBatch := []
  wf := dot_S2048x80_S80x160_S2048x160_1_0_0_1_n_n_wf
def dot_S2048x160_S160x16_S2048x16_1_0_0_1_n_n : DotDims S2048x160 S160x16 S2048x16 where
  lhsContracting := [1]
  rhsContracting := [0]
  lhsNonContracting := [0]
  rhsNonContracting := [1]
  lhsBatch := []
  rhsBatch := []
  wf := dot_S2048x160_S160x16_S2048x16_1_0_0_1_n_n_wf

abbrev win0_0 : Pipeline.Window sig grid0 :=
  Pipeline.Window.ofSpec (Memref.whole main_v14) S2048x8x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S80x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S160x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2048x8x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1048576x10 : Shape := ⟨2, ![1048576, 10]⟩
abbrev S10x20 : Shape := ⟨2, ![10, 20]⟩
abbrev S1x20 : Shape := ⟨2, ![1, 20]⟩
abbrev S20x2 : Shape := ⟨2, ![20, 2]⟩
abbrev S1x2 : Shape := ⟨2, ![1, 2]⟩
abbrev S1048576x2 : Shape := ⟨2, ![1048576, 2]⟩
abbrev S8192x10 : Shape := ⟨2, ![8192, 10]⟩
abbrev S8192x2 : Shape := ⟨2, ![8192, 2]⟩
abbrev S8192x20 : Shape := ⟨2, ![8192, 20]⟩

abbrev nBuf : Space → Nat
  | .hbm => 6
  | .vmem => 8
  | .smem => 0
  | _ => 0

abbrev bufTy : (tb : Table) → Fin (tcTables nBuf tb) → BufTy
  | .hbm, ⟨0, _⟩ => ⟨S1048576x10, .f32⟩
  | .hbm, ⟨1, _⟩ => ⟨S10x20, .f32⟩
  | .hbm, ⟨2, _⟩ => ⟨S1x20, .f32⟩
  | .hbm, ⟨3, _⟩ => ⟨S20x2, .f32⟩
  | .hbm, ⟨4, _⟩ => ⟨S1x2, .f32⟩
  | .hbm, ⟨5, _⟩ => ⟨S1048576x2, .f32⟩
  | .local _ .vmem, ⟨0, _⟩ => ⟨S8192x10, .f32⟩
  | .local _ .vmem, ⟨1, _⟩ => ⟨S8192x10, .f32⟩
  | .local _ .vmem, ⟨2, _⟩ => ⟨S10x20, .f32⟩
  | .local _ .vmem, ⟨3, _⟩ => ⟨S1x20, .f32⟩
  | .local _ .vmem, ⟨4, _⟩ => ⟨S20x2, .f32⟩
  | .local _ .vmem, ⟨5, _⟩ => ⟨S1x2, .f32⟩
  | .local _ .vmem, ⟨6, _⟩ => ⟨S8192x2, .f32⟩
  | .local _ .vmem, ⟨7, _⟩ => ⟨S8192x2, .f32⟩
  | _, _ => ⟨S1048576x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S20x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S8192x10_S8192x10_0_0 : ∀ a, (![0, 0] : Fin 2 → Nat) a + S8192x10.size a ≤ S8192x10.size a
  h_S8192x10 : 0 < S8192x10.numel
  inb_S10x20_S10x20_0_0 : ∀ a, (![0, 0] : Fin 2 → Nat) a + S10x20.size a ≤ S10x20.size a
  h_S10x20 : 0 < S10x20.numel
  inb_S1x20_S1x20_0_0 : ∀ a, (![0, 0] : Fin 2 → Nat) a + S1x20.size a ≤ S1x20.size a
  h_S1x20 : 0 < S1x20.numel
  broadcasts_S1x20_S8192x20 : S1x20.Broadcasts S8192x20
  inb_S20x2_S20x2_0_0 : ∀ a, (![0, 0] : Fin 2 → Nat) a + S20x2.size a ≤ S20x2.size a
  h_S20x2 : 0 < S20x2.numel
  inb_S1x2_S1x2_0_0 : ∀ a, (![0, 0] : Fin 2 → Nat) a + S1x2.size a ≤ S1x2.size a
  h_S1x2 : 0 < S1x2.numel
  broadcasts_S1x2_S8192x2 : S1x2.Broadcasts S8192x2
  inb_S8192x2_S8192x2_0_0 : ∀ a, (![0, 0] : Fin 2 → Nat) a + S8192x2.size a ≤ S8192x2.size a
  h_S8192x2 : 0 < S8192x2.numel
  dot_S8192x10_S10x20_S8192x20_1_0_0_1_n_n_wf : DotDims.WF S8192x10 S10x20 S8192x20 [1] [0] [0] [1] [] []
  dot_S8192x20_S20x2_S8192x2_1_0_0_1_n_n_wf : DotDims.WF S8192x20 S20x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x10.size a ≤ S1048576x10.size a
  hwx0_0 : ∀ i : grid0.Coords, EltTy.bits .f32 = 32 ∨ (Rect.block (s := S1048576x10) S8192x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x20.size a ≤ S10x20.size a
  hwx0_1 : ∀ i : grid0.Coords, EltTy.bits .f32 = 32 ∨ (Rect.block (s := S10x20) S10x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S20x2.size a ≤ S20x2.size a
  hwx0_3 : ∀ i : grid0.Coords, EltTy.bits .f32 = 32 ∨ (Rect.block (s := S20x2) S20x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2.size a ≤ S1x2.size a
  hwx0_4 : ∀ i : grid0.Coords, EltTy.bits .f32 = 32 ∨ (Rect.block (s := S1x2) S1x2.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x2.size a ≤ S1048576x2.size a
  hwx0_5 : ∀ i : grid0.Coords, EltTy.bits .f32 = 32 ∨ (Rect.block (s := S1048576x2) S8192x2.size (cc0_transform_5 i) (hinb0_5 i)).WholeWords (EltTy.packing .f32)

variable [Facts₀]

def dot_S8192x10_S10x20_S8192x20_1_0_0_1_n_n : DotDims S8192x10 S10x20 S8192x20 where
  lhsContracting := [1]
  rhsContracting := [0]
  lhsNonContracting := [0]
  rhsNonContracting := [1]
  lhsBatch := []
  rhsBatch := []
  wf := dot_S8192x10_S10x20_S8192x20_1_0_0_1_n_n_wf
def dot_S8192x20_S20x2_S8192x2_1_0_0_1_n_n : DotDims S8192x20 S20x2 S8192x2 where
  lhsContracting := [1]
  rhsContracting := [0]
  lhsNonContracting := [0]
  rhsNonContracting := [1]
  lhsBatch := []
  rhsBatch := []
  wf := dot_S8192x20_S20x2_S8192x2_1_0_0_1_n_n_wf

abbrev win0_0 : Pipeline.Window sig grid0 :=
  Pipeline.Window.ofSpec (Memref.whole main_arg0) S8192x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S10x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S20x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x2.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S8192x2.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== Proof.KerHost.lean ====
/-
  The arrays the packed kernel is launched on, read entry by entry.

  Before the launch the program builds, from the arguments, five arrays:
  * the batch viewed as groups of eight consecutive rows, [131072, 8, 10]: entry (g, q, i) is x (8 g + q, i);
  * the first layer's weights repeated eight times down the diagonal, [80, 160]: entry (l, k) is
    e (l / 10, k / 20) * w1 (l % 10, k % 20), where e is the 8 × 8 identity matrix (an iota comparison turned into a number);
  * the first bias repeated eight times along the row, [1, 160]: entry (0, k) is b1 (0, k % 20);
  * likewise the second layer's weights, [160, 16], and bias, [1, 16].
  Every one of them is a chain of broadcasts, one product and reshapes; a reshape keeps the row-major position, which is
  what turns a coordinate l of the long axis into the pair (l / 10, l % 10).
-/
import proofs.«108996_g2000706243113128_pallasbulk_423_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

noncomputable section

namespace Cert.KernelIdeal.Host

open Cert.KernelIdeal Cert.KernelIdeal.Gen Idealize.ShloMosaic Idealize.ShloMosaic.TcCoe Idealize.SL.Sem
open Idealize.ShloMosaic.ValueIdx Idealize.ShloMosaic.StableHlo

/-! ## The identity matrix -/

/-- The comparison of the row number with the column number, as the program spells it. -/
def eyeBit : IVec S8x8 1 :=
  cmpi .eq (addi (iotaInDim S8x8 32 0) (broadcastInDim S8x8 ![] Facts₀.bcast_S_S8x8 (constantI S_ 32 0#32))) (iotaInDim S8x8 32 1)

/-- The comparison holds exactly on the diagonal. -/
theorem eyeBit_apply : ∀ a b : Fin 8, eyeBit (ix2 a b) = if a.val = b.val then 1#1 else 0#1 := by
  decide

/-- The 8 × 8 identity matrix: the comparison read as a number. -/
def eye : FVec Ideal S8x8 .f32 := uitofp .f32 eyeBit

/-- Its entries: one on the diagonal, zero off it. -/
theorem eye_apply (a b : Fin 8) : eye (ix2 a b) = if a.val = b.val then (1 : EReal) else 0 := by
  show (((eyeBit (ix2 a b)).toNat : ℝ) : EReal) = _
  rw [eyeBit_apply]
  split <;> simp

/-! ## Reshapes and broadcasts of the small shapes, read at an index -/

section Reads
variable {α : Type}

/-- The identity matrix laid on axes 0 and 2 of a [8, 1, 8, 1] array. -/
theorem bc_8x8_8x1x8x1 (e : S8x8.Idx → α) (a : Fin 8) (z : Fin 1) (b : Fin 8) (z' : Fin 1) :
    broadcastInDim S8x1x8x1 ![0, 2] Facts₀.bcast_S8x8_S8x1x8x1_0_2 e (ix4 a z b z') = e (ix2 a b) :=
  broadcastInDim_apply _ _ e _ (ix2 a b) fun ax => by
    match ax with
    | ⟨0, _⟩ => rfl
    | ⟨1, _⟩ => rfl

/-- … and copied along axes 1 and 3, for the first layer's extents. -/
theorem bc_8x1x8x1_8x10x8x20 (v : S8x1x8x1.Idx → α) (a : Fin 8) (i : Fin 10) (b : Fin 8) (j : Fin 20) :
    broadcastInDim S8x10x8x20 ![0, 1, 2, 3] Facts₀.bcast_S8x1x8x1_S8x10x8x20_0_1_2_3 v (ix4 a i b j) = v (ix4 a 0 b 0) :=
  broadcastInDim_apply _ _ v _ (ix4 a 0 b 0) fun ax => by
    match ax with
    | ⟨0, _⟩ => rfl
    | ⟨1, _⟩ => rfl
    | ⟨2, _⟩ => rfl
    | ⟨3, _⟩ => rfl

/-- … and for the second layer's. -/
theorem bc_8x1x8x1_8x20x8x2 (v : S8x1x8x1.Idx → α) (a : Fin 8) (i : Fin 20) (b : Fin 8) (j : Fin 2) :
    broadcastInDim S8x20x8x2 ![0, 1, 2, 3] Facts₀.bcast_S8x1x8x1_S8x20x8x2_0_1_2_3 v (ix4 a i b j) = v (ix4 a 0 b 0) :=
  broadcastInDim_apply _ _ v _ (ix4 a 0 b 0) fun ax => by
    match ax with
    | ⟨0, _⟩ => rfl
    | ⟨1, _⟩ => rfl
    | ⟨2, _⟩ => rfl
    | ⟨3, _⟩ => rfl

/-- The first layer's weights laid on axes 1 and 3 of a [1, 10, 1, 20] array. -/
theorem bc_10x20_1x10x1x20 (w : S10x20.Idx → α) (z : Fin 1) (i : Fin 10) (z' : Fin 1) (j : Fin 20) :
    broadcastInDim S1x10x1x20 ![1, 3] Facts₀.bcast_S10x20_S1x10x1x20_1_3 w (ix4 z i z' j) = w (ix2 i j) :=
  broadcastInDim_apply _ _ w _ (ix2 i j) fun ax => by
    match ax with
    | ⟨0, _⟩ => rfl
    | ⟨1, _⟩ => rfl

/-- … and copied along axes 0 and 2. -/
theorem bc_1x10x1x20_8x10x8x20 (v : S1x10x1x20.Idx → α) (a : Fin 8) (i : Fin 10) (b : Fin 8) (j : Fin 20) :
    broadcastInDim S8x10x8x20 ![0, 1, 2, 3] Facts₀.bcast_S1x10x1x20_S8x10x8x20_0_1_2_3 v (ix4 a i b j) = v (ix4 0 i 0 j) :=
  broadcastInDim_apply _ _ v _ (ix4 0 i 0 j) fun ax => by
    match ax with
    | ⟨0, _⟩ => rfl
    | ⟨1, _⟩ => rfl
    | ⟨2, _⟩ => rfl
    | ⟨3, _⟩ => rfl

/-- The second layer's weights laid on axes 1 and 3 of a [1, 20, 1, 2] array. -/
theorem bc_20x2_1x20x1x2 (w : S20x2.Idx → α) (z : Fin 1) (i : Fin 20) (z' : Fin 1) (j : Fin 2) :
    broadcastInDim S1x20x1x2 ![1, 3] Facts₀.bcast_S20x2_S1x20x1x2_1_3 w (ix4 z i z' j) = w (ix2 i j) :=
  broadcastInDim_apply _ _ w _ (ix2 i j) fun ax => by
    match ax with
    | ⟨0, _⟩ => rfl
    | ⟨1, _⟩ => rfl

/-- … and copied along axes 0 and 2. -/
theorem bc_1x20x1x2_8x20x8x2 (v : S1x20x1x2.Idx → α) (a : Fin 8) (i : Fin 20) (b : Fin 8) (j : Fin 2) :
    broadcastInDim S8x20x8x2 ![0, 1, 2, 3] Facts₀.bcast_S1x20x1x2_S8x20x8x2_0_1_2_3 v (ix4 a i b j) = v (ix4 0 i 0 j) :=
  broadcastInDim_apply _ _ v _ (ix4 0 i 0 j) fun ax => by
    match ax with
    | ⟨0, _⟩ => rfl
    | ⟨1, _⟩ => rfl
    | ⟨2, _⟩ => rfl
    | ⟨3, _⟩ => rfl

/-- A bias row copied eight times: [1, 1, 1, 20] to [1, 1, 8, 20]. -/
theorem bc_1x1x1x20_1x1x8x20 (v : S1x1x1x20.Idx → α) (z z' : Fin 1) (q : Fin 8) (j : Fin 20) :
    broadcastInDim S1x1x8x20 ![0, 1, 2, 3] Facts₀.bcast_S1x1x1x20_S1x1x8x20_0_1_2_3 v (ix4 z z' q j) = v (ix4 0 0 0 j) :=
  broadcastInDim_apply _ _ v _ (ix4 0 0 0 j) fun ax => by
    match ax with
    | ⟨0, _⟩ => rfl
    | ⟨1, _⟩ => rfl
    | ⟨2, _⟩ => rfl
    | ⟨3, _⟩ => rfl

/-- The same for the second bias: [1, 1, 1, 2] to [1, 1, 8, 2]. -/
theorem bc_1x1x1x2_1x1x8x2 (v : S1x1x1x2.Idx → α) (z z' : Fin 1) (q : Fin 8) (j : Fin 2) :
    broadcastInDim S1x1x8x2 ![0, 1, 2, 3] Facts₀.bcast_S1x1x1x2_S1x1x8x2_0_1_2_3 v (ix4 z z' q j) = v (ix4 0 0 0 j) :=
  broadcastInDim_apply _ _ v _ (ix4 0 0 0 j) fun ax => by
    match ax with
    | ⟨0, _⟩ => rfl
    | ⟨1, _⟩ => rfl
    | ⟨2, _⟩ => rfl
    | ⟨3, _⟩ => rfl

end Reads

/-! ## The five arrays as functions of the arguments -/

/-- The first layer's weights, eight copies down the diagonal of an [80, 160] matrix. -/
def kron1 (e : FVec Ideal S8x8 .f32) (w : FVec Ideal S10x20 .f32) : FVec Ideal S80x160 .f32 :=
  shapeCast S80x160
    (mulf (broadcastInDim S8x10x8x20 ![0, 1, 2, 3] Facts₀.bcast_S8x1x8x1_S8x10x8x20_0_1_2_3
            (broadcastInDim S8x1x8x1 ![0, 2] Facts₀.bcast_S8x8_S8x1x8x1_0_2 e))
          (broadcastInDim S8x10x8x20 ![0, 1, 2, 3] Facts₀.bcast_S1x10x1x20_S8x10x8x20_0_1_2_3
            (broadcastInDim S1x10x1x20 ![1, 3] Facts₀.bcast_S10x20_S1x10x1x20_1_3 w)))
    Facts₀.shapeCasts_S8x10x8x20_S80x160

/-- Entry (l, k): the identity's entry at the two block numbers, times the weight at the two positions within the blocks. -/
theorem kron1_apply (e : FVec Ideal S8x8 .f32) (w : FVec Ideal S10x20 .f32) (l : Fin 80) (k : Fin 160) :
    kron1 e w (ix2 l k)
      = e (ix2 ⟨l.val / 10, by have := l.isLt; omega⟩ ⟨k.val / 20, by have := k.isLt; omega⟩)
        * w (ix2 ⟨l.val % 10, by omega⟩ ⟨k.val % 20, by omega⟩) := by
  unfold kron1
  refine (shapeCast_apply _ _ (ix2 l k)
    (ix4 ⟨l.val / 10, by have := l.isLt; omega⟩ ⟨l.val % 10, by omega⟩ ⟨k.val / 20, by have := k.isLt; omega⟩ ⟨k.val % 20, by omega⟩) ?_).trans ?_
  · rw [Shape.rowMajor_val_four, Shape.rowMajor_val_two]
    show ((l.val / 10 * 10 + l.val % 10) * 8 + k.val / 20) * 20 + k.val % 20 = l.val * 160 + k.val
    have := k.isLt; omega
  · rw [mulf_apply, bc_8x1x8x1_8x10x8x20, bc_8x8_8x1x8x1, bc_1x10x1x20_8x10x8x20, bc_10x20_1x10x1x20]

/-- The second layer's weights, eight copies down the diagonal of a [160, 16] matrix. -/
def kron2 (e : FVec Ideal S8x8 .f32) (w : FVec Ideal S20x2 .f32) : FVec Ideal S160x16 .f32 :=
  shapeCast S160x16
    (mulf (broadcastInDim S8x20x8x2 ![0, 1, 2, 3] Facts₀.bcast_S8x1x8x1_S8x20x8x2_0_1_2_3
            (broadcastInDim S8x1x8x1 ![0, 2] Facts₀.bcast_S8x8_S8x1x8x1_0_2 e))
          (broadcastInDim S8x20x8x2 ![0, 1, 2, 3] Facts₀.bcast_S1x20x1x2_S8x20x8x2_0_1_2_3
            (broadcastInDim S1x20x1x2 ![1, 3] Facts₀.bcast_S20x2_S1x20x1x2_1_3 w)))
    Facts₀.shapeCasts_S8x20x8x2_S160x16

/-- Entry (k, c) of it. -/
theorem kron2_apply (e : FVec Ideal S8x8 .f32) (w : FVec Ideal S20x2 .f32) (k : Fin 160) (c : Fin 16) :
    kron2 e w (ix2 k c)
      = e (ix2 ⟨k.val / 20, by have := k.isLt; omega⟩ ⟨c.val / 2, by have := c.isLt; omega⟩)
        * w (ix2 ⟨k.val % 20, by omega⟩ ⟨c.val % 2, by omega⟩) := by
  unfold kron2
  refine (shapeCast_apply _ _ (ix2 k c)
    (ix4 ⟨k.val / 20, by have := k.isLt; omega⟩ ⟨k.val % 20, by omega⟩ ⟨c.val / 2, by have := c.isLt; omega⟩ ⟨c.val % 2, by omega⟩) ?_).trans ?_
  · rw [Shape.rowMajor_val_four, Shape.rowMajor_val_two]
    show ((k.val / 20 * 20 + k.val % 20) * 8 + c.val / 2) * 2 + c.val % 2 = k.val * 16 + c.val
    have := c.isLt; omega
  · rw [mulf_apply, bc_8x1x8x1_8x20x8x2, bc_8x8_8x1x8x1, bc_1x20x1x2_8x20x8x2, bc_20x2_1x20x1x2]

/-- The first bias, eight copies along a [1, 160] row. -/
def tile1 (b : FVec Ideal S1x20 .f32) : FVec Ideal S1x160 .f32 :=
  shapeCast S1x160
    (broadcastInDim S1x1x8x20 ![0, 1, 2, 3] Facts₀.bcast_S1x1x1x20_S1x1x8x20_0_1_2_3
      (shapeCast S1x1x1x20 b Facts₀.shapeCasts_S1x20_S1x1x1x20))
    Facts₀.shapeCasts_S1x1x8x20_S1x160

/-- Entry (0, k): the bias at the position within the block. -/
theorem tile1_apply (b : FVec Ideal S1x20 .f32) (k : Fin 160) :
    tile1 b (ix2 (0 : Fin 1) k) = b (ix2 (0 : Fin 1) ⟨k.val % 20, by omega⟩) := by
  unfold tile1
  refine (shapeCast_apply _ _ (ix2 (0 : Fin 1) k)
    (ix4 (0 : Fin 1) (0 : Fin 1) ⟨k.val / 20, by have := k.isLt; omega⟩ ⟨k.val % 20, by omega⟩) ?_).trans ?_
  · rw [Shape.rowMajor_val_four, Shape.rowMajor_val_two]
    show ((0 * 1 + 0) * 8 + k.val / 20) * 20 + k.val % 20 = 0 * 160 + k.val
    omega
  · rw [bc_1x1x1x20_1x1x8x20]
    refine shapeCast_apply _ _ _ (ix2 (0 : Fin 1) ⟨k.val % 20, by omega⟩) ?_
    rw [Shape.rowMajor_val_four, Shape.rowMajor_val_two]
    show 0 * 20 + k.val % 20 = ((0 * 1 + 0) * 1 + 0) * 20 + k.val % 20
    omega

/-- The second bias, eight copies along a [1, 16] row. -/
def tile2 (b : FVec Ideal S1x2 .f32) : FVec Ideal S1x16 .f32 :=
  shapeCast S1x16
    (broadcastInDim S1x1x8x2 ![0, 1, 2, 3] Facts₀.bcast_S1x1x1x2_S1x1x8x2_0_1_2_3
      (shapeCast S1x1x1x2 b Facts₀.shapeCasts_S1x2_S1x1x1x2))
    Facts₀.shapeCasts_S1x1x8x2_S1x16

/-- Entry (0, c) of it. -/
theorem tile2_apply (b : FVec Ideal S1x2 .f32) (c : Fin 16) :
    tile2 b (ix2 (0 : Fin 1) c) = b (ix2 (0 : Fin 1) ⟨c.val % 2, by omega⟩) := by
  unfold tile2
  refine (shapeCast_apply _ _ (ix2 (0 : Fin 1) c)
    (ix4 (0 : Fin 1) (0 : Fin 1) ⟨c.val / 2, by have := c.isLt; omega⟩ ⟨c.val % 2, by omega⟩) ?_).trans ?_
  · rw [Shape.rowMajor_val_four, Shape.rowMajor_val_two]
    show ((0 * 1 + 0) * 8 + c.val / 2) * 2 + c.val % 2 = 0 * 16 + c.val
    omega
  · rw [bc_1x1x1x2_1x1x8x2]
    refine shapeCast_apply _ _ _ (ix2 (0 : Fin 1) ⟨c.val % 2, by omega⟩) ?_
    rw [Shape.rowMajor_val_four, Shape.rowMajor_val_two]
    show 0 * 2 + c.val % 2 = ((0 * 1 + 0) * 1 + 0) * 2 + c.val % 2
    omega

/-- The batch as groups of eight consecutive rows. -/
def groups (x : FVec Ideal S1048576x10 .f32) : FVec Ideal S131072x8x10 .f32 :=
  shapeCast S131072x8x10 x Facts₀.shapeCasts_S1048576x10_S131072x8x10

/-- Entry (g, q, i): row 8 g + q of the batch at column i. -/
theorem groups_apply (x : FVec Ideal S1048576x10 .f32) (g : Fin 131072) (q : Fin 8) (i : Fin 10) :
    groups x (ix3 g q i) = x (ix2 ⟨8 * g.val + q.val, by have := g.isLt; have := q.isLt; omega⟩ i) := by
  unfold groups
  refine shapeCast_apply _ _ _ _ ?_
  rw [Shape.rowMajor_val_three, Shape.rowMajor_val_two]
  show (8 * g.val + q.val) * 10 + i.val = (g.val * 8 + q.val) * 10 + i.val
  omega

/-! ## What the launch finds in each window's array -/

section Launch

variable (m : (ℓ : Loc nD τ sig) → Buf (Elt Ideal) ℓ)

/-- The batch window's array is the batch in groups of eight rows. -/
theorem V_groups (c : Dev nD) :
    (V m c main_v14 : S131072x8x10.Idx → EReal) = groups (m ((c : Thread nD τ).loc main_arg0)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The first weights window's array is the block-diagonal copy of the first layer's weights. -/
theorem V_kron1 (c : Dev nD) :
    (V m c main_v6 : S80x160.Idx → EReal) = kron1 eye (m ((c : Thread nD τ).loc main_arg1)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The first bias window's array is the first bias repeated. -/
theorem V_tile1 (c : Dev nD) :
    (V m c main_v9 : S1x160.Idx → EReal) = tile1 (m ((c : Thread nD τ).loc main_arg2)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The second weights window's array is the block-diagonal copy of the second layer's weights. -/
theorem V_kron2 (c : Dev nD) :
    (V m c main_v10 : S160x16.Idx → EReal) = kron2 eye (m ((c : Thread nD τ).loc main_arg3)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

/-- The second bias window's array is the second bias repeated. -/
theorem V_tile2 (c : Dev nD) :
    (V m c main_v13 : S1x16.Idx → EReal) = tile2 (m ((c : Thread nD τ).loc main_arg4)) := by
  dsimp only [Gen.V, Gen.V0]
  simp only [Gen.hostOps0, Gen.hostOps0_1, Gen.hostOps0_2, Gen.hostOps0_3, Gen.hostOps0_4, List.flatten_cons, List.flatten_nil,
    List.append_nil, List.cons_append, List.nil_append]
  after_results
  rfl

end Launch

end Cert.KernelIdeal.Host

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.MlpSpec.lean ====
/-
  The two-layer perceptron both programs compute, stated once on the extended reals.

  For a batch row r and an output column o the result is

      (sum over j < 20 of hidden r j * w2 (j, o)) + b2 (0, o),
      hidden r j = max ((sum over i < 10 of x (r, i) * w1 (i, j)) + b1 (0, j)) 0.

  Nothing here mentions either program: the arrays are plain functions on the index sets of the argument shapes, and
  the zero of the rectifier is kept as the extended real the all-zero word denotes, the way both programs spell it.
-/
import Idealize.ShloMosaic.PureOps.Ideal
import Idealize.ShloMosaic.Lib.ValueIdx

noncomputable section

namespace Cert.Mlp

open Idealize.ShloMosaic Idealize.ShloMosaic.ValueIdx

/-- The rectifier's threshold: the extended real the all-zero word denotes. -/
abbrev zeroW : EReal := Ideal.ofBits .f32 0x00000000#32

/-- Hidden unit `j` of batch row `r`: the first layer's affine form, rectified. -/
def hidden (x : (⟨2, ![1048576, 10]⟩ : Shape).Idx → EReal) (w1 : (⟨2, ![10, 20]⟩ : Shape).Idx → EReal)
    (b1 : (⟨2, ![1, 20]⟩ : Shape).Idx → EReal) (r : Fin 1048576) (j : Fin 20) : EReal :=
  max (∑ i : Fin 10, x (ix2 r i) * w1 (ix2 i j) + b1 (ix2 0 j)) zeroW

/-- The network's output array: the second layer's affine form of the hidden units, entry by entry. -/
def mlp (x : (⟨2, ![1048576, 10]⟩ : Shape).Idx → EReal) (w1 : (⟨2, ![10, 20]⟩ : Shape).Idx → EReal)
    (b1 : (⟨2, ![1, 20]⟩ : Shape).Idx → EReal) (w2 : (⟨2, ![20, 2]⟩ : Shape).Idx → EReal)
    (b2 : (⟨2, ![1, 2]⟩ : Shape).Idx → EReal) : (⟨2, ![1048576, 2]⟩ : Shape).Idx → EReal :=
  fun i => ∑ j : Fin 20, hidden x w1 b1 (i 0) j * w2 (ix2 j (i 1)) + b2 (ix2 0 (i 1))

end Cert.Mlp

end
-- ==== Proof.KerPayload.lean ====
/-
  One entry of what the packed kernel's body stores, as a function of the five blocks it loads.

  The body views its [2048, 8, 10] block of the batch as a [2048, 80] matrix (a reshape: column l of the matrix is entry
  (l / 10, l % 10) of the group), multiplies by the [80, 160] packed weights, adds the packed bias row to every row,
  rectifies, multiplies by the [160, 16] packed second-layer weights, adds the second packed bias, and views the
  [2048, 16] result as [2048, 8, 2] (column 2 p + o becomes entry (p, o)). Each product is accumulated from zero, so an
  entry of it is the plain sum over the contracted axis.
-/
import proofs.«108996_g2000706243113128_pallasbulk_423_2_alg».proof.Proof.Gen.KernelIdeal.Skeleton
import proofs.«108996_g2000706243113128_pallasbulk_423_2_alg».proof.Proof.Gen.KernelIdeal
import proofs.«108996_g2000706243113128_pallasbulk_423_2_alg».proof.Proof.LibPlainDot
import proofs.«108996_g2000706243113128_pallasbulk_423_2_alg».proof.Proof.MlpSpec
import Idealize.ShloMosaic.Lib.Pipeline.Value
import Idealize.ShloMosaic.Lib.ValueIdx
import Idealize.ShloMosaic.Lib.ValueLayout

noncomputable section

namespace Cert.KernelIdeal.Payload

open Cert.KernelIdeal Cert.KernelIdeal.Gen Cert.KernelIdeal.Facts₀ Idealize.ShloMosaic Idealize.ShloMosaic.TcCoe Idealize.SL.Sem
open Idealize.ShloMosaic.ValueIdx

/-- The group's 80 entries as one matrix row: column `l` is entry (`l / 10`, `l % 10`) of the group. -/
theorem flat_apply (x0 : Vec Ideal S2048x8x10 .f32) (g : Fin 2048) (l : Fin 80) :
    shapeCast S2048x80 x0 Facts₀.shapeCasts_S2048x8x10_S2048x80 (ix2 g l)
      = x0 (ix3 g ⟨l.val / 10, by have := l.isLt; omega⟩ ⟨l.val % 10, by omega⟩) := by
  refine shapeCast_apply _ _ _ _ ?_
  rw [Shape.rowMajor_val_three, Shape.rowMajor_val_two]
  show (g.val * 8 + l.val / 10) * 10 + l.val % 10 = g.val * 80 + l.val
  omega

/-- The body's result at entry (`g`, `p`, `o`) of the block. -/
theorem pay_apply (x0 : Vec Ideal S2048x8x10 .f32) (x1 : Vec Ideal S80x160 .f32) (x2 : Vec Ideal S1x160 .f32)
    (x3 : Vec Ideal S160x16 .f32) (x4 : Vec Ideal S1x16 .f32) (g : Fin 2048) (p : Fin 8) (o : Fin 2) :
    k0_pay1 x0 x1 x2 x3 x4 (ix3 g p o)
      = ∑ k : Fin 160,
          max (∑ l : Fin 80, x0 (ix3 g ⟨l.val / 10, by have := l.isLt; omega⟩ ⟨l.val % 10, by omega⟩) * x1 (ix2 l k)
                + x2 (ix2 (0 : Fin 1) k)) Cert.Mlp.zeroW
            * x3 (ix2 k ⟨2 * p.val + o.val, by have := p.isLt; have := o.isLt; omega⟩)
        + x4 (ix2 (0 : Fin 1) ⟨2 * p.val + o.val, by have := p.isLt; have := o.isLt; omega⟩) := by
  unfold k0_pay1
  simp only [shapeCast_self]
  refine (shapeCast_apply _ _ (ix3 g p o) (ix2 g ⟨2 * p.val + o.val, by have := p.isLt; have := o.isLt; omega⟩) ?_).trans ?_
  · rw [Shape.rowMajor_val_three, Shape.rowMajor_val_two]
    show g.val * 16 + (2 * p.val + o.val) = (g.val * 8 + p.val) * 2 + o.val
    omega
  rw [addf_apply, broadcastTo_1b_ab_apply]
  refine congrArg (· + x4 (ix2 (0 : Fin 1) ⟨2 * p.val + o.val, _⟩)) ?_
  refine (PlainDot.matmul_zero_apply _ rfl none _ x3 _).trans ?_
  refine Finset.sum_congr rfl fun k _ => ?_
  refine congrArg (· * x3 (ix2 k ⟨2 * p.val + o.val, _⟩)) ?_
  show maximumf _ _ (ix2 g k) = _
  rw [maximumf_apply, addf_apply, broadcastTo_1b_ab_apply, broadcast_apply]
  refine congrArg₂ max (congrArg (· + x2 (ix2 (0 : Fin 1) k)) ?_) rfl
  refine (PlainDot.matmul_zero_apply _ rfl none _ x1 _).trans ?_
  refine Finset.sum_congr rfl fun l _ => ?_
  refine congrArg (· * x1 (ix2 l k)) ?_
  exact flat_apply x0 g l

end Cert.KernelIdeal.Payload

end
-- ==== Proof.LibBlockDiagSum.lean ====
/-
  Sums over a long axis cut into equal blocks, and products against a block-diagonal matrix.

  An axis of `P * K` positions is `P` blocks of `K`: position `l` is place `l % K` of block `l / K`, and a sum over the
  axis is the double sum over blocks and places (`sum_div_mod`). A factor that is `d q * w i` with `d q` equal to one on a
  single block `κ` and to zero on the others — a column of a matrix that repeats a small matrix down its diagonal —
  kills every block but `κ` (`sum_diag`), so the long sum against it is the small sum over block `κ` (`sum_blockdiag`).
  Only `0 * a = 0`, `a * 0 = 0` and `1 * a = a` are used, no distributivity, so the statements hold on the extended reals
  with no hypothesis that anything is finite.
-/
import Mathlib.Algebra.BigOperators.Fin
import Mathlib.Data.EReal.Operations
import Mathlib.Logic.Equiv.Fin.Basic

namespace BlockDiagSum

open scoped BigOperators

/-- A sum over an axis of `P * K` positions, each position `l` read as the pair (`l / K`, `l % K`), is the double sum
    over the pairs. -/
theorem sum_div_mod {M : Type*} [AddCommMonoid M] (P K n : Nat) (hn : n = P * K) (F : Fin P → Fin K → M)
    (hq : ∀ l : Fin n, l.val / K < P) (hi : ∀ l : Fin n, l.val % K < K) :
    ∑ l : Fin n, F ⟨l.val / K, hq l⟩ ⟨l.val % K, hi l⟩ = ∑ q : Fin P, ∑ i : Fin K, F q i := by
  subst hn
  rw [← Fintype.sum_prod_type (f := fun qi : Fin P × Fin K => F qi.1 qi.2)]
  exact Fintype.sum_equiv finProdFinEquiv.symm _ _ (fun l => rfl)

/-- Against a block-diagonal factor only the diagonal block survives: with `d q = 1` for `q = κ` and `0` otherwise,
    the double sum of `a q i * (d q * w i)` is the single sum over block `κ`. -/
theorem sum_diag {P K : Nat} (a : Fin P → Fin K → EReal) (w : Fin K → EReal) (κ : Fin P) :
    ∑ q : Fin P, ∑ i : Fin K, a q i * ((if q.val = κ.val then (1 : EReal) else 0) * w i) = ∑ i : Fin K, a κ i * w i := by
  rw [Finset.sum_eq_single κ]
  · refine Finset.sum_congr rfl fun i _ => ?_
    rw [if_pos rfl, one_mul]
  · intro q _ hq
    have hne : q.val ≠ κ.val := fun h => hq (Fin.ext h)
    refine Finset.sum_eq_zero fun i _ => ?_
    rw [if_neg hne, zero_mul, mul_zero]
  · intro h; exact absurd (Finset.mem_univ κ) h

/-- The two together: a sum over the long axis against a block-diagonal factor is the sum over the one surviving
    block. -/
theorem sum_blockdiag (P K n : Nat) (hn : n = P * K) (a : Fin P → Fin K → EReal) (w : Fin K → EReal) (κ : Fin P)
    (hq : ∀ l : Fin n, l.val / K < P) (hi : ∀ l : Fin n, l.val % K < K) :
    ∑ l : Fin n, a ⟨l.val / K, hq l⟩ ⟨l.val % K, hi l⟩ * ((if l.val / K = κ.val then (1 : EReal) else 0) * w ⟨l.val % K, hi l⟩)
      = ∑ i : Fin K, a κ i * w i :=
  (sum_div_mod P K n hn (fun q i => a q i * ((if q.val = κ.val then (1 : EReal) else 0) * w i)) hq hi).trans (sum_diag a w κ)

end BlockDiagSum
-- ==== Proof.PackedAlgebra.lean ====
/-
  Eight rows at a time: the packed computation is the network, row by row.

  The packed form lays eight consecutive batch rows side by side in one row of 80 entries, multiplies by a matrix that
  carries eight copies of the first layer's weights down its diagonal and zeros elsewhere, adds eight copies of the bias,
  rectifies, and does the same with the second layer. Column k = 20 q + j of the first product is

      sum over l = 10 q' + i of x (8 g + q', i) * (e (q', q) * w1 (i, j)),     e the identity matrix,

  and since e (q', q) is zero unless q' = q — and zero times anything is zero on the extended reals, one times anything
  the thing itself — only the copy q' = q survives: the sum is row 8 g + q of the batch against column j of the weights.
  The second product collapses the same way. No entry needs to be finite for this.
-/
import proofs.«108996_g2000706243113128_pallasbulk_423_2_alg».proof.Proof.MlpSpec
import proofs.«108996_g2000706243113128_pallasbulk_423_2_alg».proof.Proof.LibBlockDiagSum

noncomputable section

namespace Cert.Mlp

open Idealize.ShloMosaic Idealize.ShloMosaic.ValueIdx BlockDiagSum
open scoped BigOperators

/-! ## The packed computation -/

/-- The batch row that position `q` of group `g` holds: row `8 g + q`. -/
abbrev rowOf (g : Fin 131072) (q : Fin 8) : Fin 1048576 := ⟨8 * g.val + q.val, by have := g.isLt; have := q.isLt; omega⟩

/-- The column of a packed output row that holds output `o` of position `p`: column `2 p + o`. -/
abbrev lane (p : Fin 8) (o : Fin 2) : Fin 16 := ⟨2 * p.val + o.val, by have := p.isLt; have := o.isLt; omega⟩

/-- Hidden column `k` of packed row `g`: the 80 entries of the group against column `k` of the packed weights, plus
    the packed bias, rectified. -/
def packedHidden (X : (⟨3, ![131072, 8, 10]⟩ : Shape).Idx → EReal) (W1 : (⟨2, ![80, 160]⟩ : Shape).Idx → EReal)
    (B1 : (⟨2, ![1, 160]⟩ : Shape).Idx → EReal) (g : Fin 131072) (k : Fin 160) : EReal :=
  max (∑ l : Fin 80, X (ix3 g ⟨l.val / 10, by have := l.isLt; omega⟩ ⟨l.val % 10, by omega⟩) * W1 (ix2 l k) + B1 (ix2 0 k)) zeroW

/-- Entry (`g`, `p`, `o`) of the packed result: the 160 hidden columns of the group against column `2 p + o` of the packed
    second-layer weights, plus the packed bias. -/
def packedAt (X : (⟨3, ![131072, 8, 10]⟩ : Shape).Idx → EReal) (W1 : (⟨2, ![80, 160]⟩ : Shape).Idx → EReal)
    (B1 : (⟨2, ![1, 160]⟩ : Shape).Idx → EReal) (W2 : (⟨2, ![160, 16]⟩ : Shape).Idx → EReal)
    (B2 : (⟨2, ![1, 16]⟩ : Shape).Idx → EReal) (g : Fin 131072) (p : Fin 8) (o : Fin 2) : EReal :=
  ∑ k : Fin 160, packedHidden X W1 B1 g k * W2 (ix2 k (lane p o)) + B2 (ix2 0 (lane p o))

section Bridge

variable (x : (⟨2, ![1048576, 10]⟩ : Shape).Idx → EReal) (w1 : (⟨2, ![10, 20]⟩ : Shape).Idx → EReal)
  (b1 : (⟨2, ![1, 20]⟩ : Shape).Idx → EReal) (w2 : (⟨2, ![20, 2]⟩ : Shape).Idx → EReal) (b2 : (⟨2, ![1, 2]⟩ : Shape).Idx → EReal)
  (X : (⟨3, ![131072, 8, 10]⟩ : Shape).Idx → EReal) (W1 : (⟨2, ![80, 160]⟩ : Shape).Idx → EReal)
  (B1 : (⟨2, ![1, 160]⟩ : Shape).Idx → EReal) (W2 : (⟨2, ![160, 16]⟩ : Shape).Idx → EReal)
  (B2 : (⟨2, ![1, 16]⟩ : Shape).Idx → EReal)
  (hX : ∀ (g : Fin 131072) (q : Fin 8) (i : Fin 10), X (ix3 g q i) = x (ix2 (rowOf g q) i))
  (hW1 : ∀ (l : Fin 80) (k : Fin 160), W1 (ix2 l k)
    = (if l.val / 10 = k.val / 20 then (1 : EReal) else 0) * w1 (ix2 ⟨l.val % 10, by omega⟩ ⟨k.val % 20, by omega⟩))
  (hB1 : ∀ k : Fin 160, B1 (ix2 0 k) = b1 (ix2 0 ⟨k.val % 20, by omega⟩))
  (hW2 : ∀ (k : Fin 160) (c : Fin 16), W2 (ix2 k c)
    = (if k.val / 20 = c.val / 2 then (1 : EReal) else 0) * w2 (ix2 ⟨k.val % 20, by omega⟩ ⟨c.val % 2, by omega⟩))
  (hB2 : ∀ c : Fin 16, B2 (ix2 0 c) = b2 (ix2 0 ⟨c.val % 2, by omega⟩))

include hX hW1 in
/-- The first packed product, column `k = 20 q + j`: only copy `q` of the weights meets row `8 g + q` of the batch. -/
theorem packed_inner (g : Fin 131072) (k : Fin 160) :
    ∑ l : Fin 80, X (ix3 g ⟨l.val / 10, by have := l.isLt; omega⟩ ⟨l.val % 10, by omega⟩) * W1 (ix2 l k)
      = ∑ i : Fin 10, x (ix2 (rowOf g ⟨k.val / 20, by have := k.isLt; omega⟩) i) * w1 (ix2 i ⟨k.val % 20, by omega⟩) := by
  rw [← sum_blockdiag 8 10 80 rfl (fun q i => x (ix2 (rowOf g q) i)) (fun i => w1 (ix2 i ⟨k.val % 20, by omega⟩))
    ⟨k.val / 20, by have := k.isLt; omega⟩ (fun l => by have := l.isLt; omega) (fun l => by omega)]
  refine Finset.sum_congr rfl fun l _ => ?_
  rw [hX, hW1]

include hX hW1 hB1 in
/-- So hidden column `20 q + j` of packed row `g` is hidden unit `j` of batch row `8 g + q`. -/
theorem packedHidden_eq (g : Fin 131072) (k : Fin 160) :
    packedHidden X W1 B1 g k
      = hidden x w1 b1 (rowOf g ⟨k.val / 20, by have := k.isLt; omega⟩) ⟨k.val % 20, by omega⟩ := by
  unfold packedHidden hidden
  rw [packed_inner x w1 X W1 hX hW1 g k, hB1]

include hX hW1 hB1 hW2 hB2 in
/-- And entry (`g`, `p`, `o`) of the packed result is the network's output `o` on batch row `8 g + p`. -/
theorem packedAt_eq_mlp (g : Fin 131072) (p : Fin 8) (o : Fin 2) :
    packedAt X W1 B1 W2 B2 g p o = mlp x w1 b1 w2 b2 (ix2 (rowOf g p) o) := by
  unfold packedAt
  show _ = ∑ j : Fin 20, hidden x w1 b1 (rowOf g p) j * w2 (ix2 j o) + b2 (ix2 0 o)
  have hlane : (⟨(lane p o).val % 2, by omega⟩ : Fin 2) = o :=
    Fin.ext (by show (2 * p.val + o.val) % 2 = o.val; have := o.isLt; omega)
  have hdiv : (lane p o).val / 2 = p.val := by show (2 * p.val + o.val) / 2 = p.val; have := o.isLt; omega
  rw [hB2, hlane]
  rw [← sum_blockdiag 8 20 160 rfl (fun q j => hidden x w1 b1 (rowOf g q) j) (fun j => w2 (ix2 j o)) p
    (fun k => by have := k.isLt; omega) (fun k => by omega)]
  refine congrArg (· + b2 (ix2 0 o)) (Finset.sum_congr rfl fun k _ => ?_)
  rw [packedHidden_eq x w1 b1 X W1 B1 hX hW1 hB1 g k, hW2, hdiv, hlane]

end Bridge

end Cert.Mlp

end
-- ==== Proof.KerValue.lean ====
/-
  From what each grid point writes back to the whole result of the packed kernel, and from there to the program's result.

  Grid point t loads rows 2048 t … 2048 t + 2047 of the grouped batch and the four packed parameter arrays whole, and
  writes back rows 2048 t … 2048 t + 2047 of the [131072, 8, 2] result. Entry (g, p, o) of what it writes is the packed
  computation on group 2048 t + g, so every point writes its block of ONE array, the packed computation group by group;
  the 64 blocks tile the result (group G lies in block G / 2048), so after the run the result is that array. The program
  then reshapes it to [1048576, 2]: row r of the final result is entry (r / 8, r % 8) of the packed one — and by the
  algebra of the packed form that is the network's output on batch row 8 (r / 8) + r % 8 = r.
-/
import proofs.«108996_g2000706243113128_pallasbulk_423_2_alg».proof.Proof.Gen.KernelIdeal.Frame
import proofs.«108996_g2000706243113128_pallasbulk_423_2_alg».proof.Proof.KerHost
import proofs.«108996_g2000706243113128_pallasbulk_423_2_alg».proof.Proof.KerPayload
import proofs.«108996_g2000706243113128_pallasbulk_423_2_alg».proof.Proof.PackedAlgebra
import Idealize.ShloMosaic.Lib.Pipeline.Value
import Idealize.ShloMosaic.Lib.StableHlo.Run

noncomputable section

namespace Cert.KernelIdeal.KerValue

open Cert.KernelIdeal Cert.KernelIdeal.Gen Cert.KernelIdeal.Facts₀ Idealize.ShloMosaic Idealize.ShloMosaic.TcCoe Idealize.SL.Sem
open Idealize.ShloMosaic.ValueIdx Idealize.ShloMosaic.StableHlo Cert.Mlp
open Idealize.ShloMosaic.Pipeline (Dat)

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The packed computation, group by group, as one [131072, 8, 2] array of the five arrays the launch finds. -/
def packedArr (X : S131072x8x10.Idx → EReal) (W1 : S80x160.Idx → EReal) (B1 : S1x160.Idx → EReal)
    (W2 : S160x16.Idx → EReal) (B2 : S1x16.Idx → EReal) : S131072x8x2.Idx → EReal :=
  fun i => packedAt X W1 B1 W2 B2 (i 0) (i 1) (i 2)

/-- The array at an index whose coordinates are known. -/
theorem packedArr_at (X : S131072x8x10.Idx → EReal) (W1 : S80x160.Idx → EReal) (B1 : S1x160.Idx → EReal)
    (W2 : S160x16.Idx → EReal) (B2 : S1x16.Idx → EReal) (j : S131072x8x2.Idx) (G : Fin 131072) (p : Fin 8) (o : Fin 2)
    (h0 : (j 0).val = G.val) (h1 : (j 1).val = p.val) (h2 : (j 2).val = o.val) :
    packedAt X W1 B1 W2 B2 G p o = packedArr X W1 B1 W2 B2 j := by
  obtain ⟨G', p', o', rfl⟩ : ∃ (G' : Fin 131072) (p' : Fin 8) (o' : Fin 2), j = ix3 G' p' o' := ⟨j 0, j 1, j 2, eq_ix3 j⟩
  obtain rfl : G' = G := Fin.ext h0
  obtain rfl : p' = p := Fin.ext h1
  obtain rfl : o' = o := Fin.ext h2
  rfl

/-! ## One grid point -/

/-- The body's result on a block of 2048 groups that starts at group `2048 T`, the parameter blocks being the whole
    parameter arrays, is the packed computation on those groups. -/
theorem point_eq (X : S131072x8x10.Idx → EReal) (W1 : S80x160.Idx → EReal) (B1 : S1x160.Idx → EReal)
    (W2 : S160x16.Idx → EReal) (B2 : S1x16.Idx → EReal)
    (x0 : Vec Ideal S2048x8x10 .f32) (x1 : Vec Ideal S80x160 .f32) (x2 : Vec Ideal S1x160 .f32)
    (x3 : Vec Ideal S160x16 .f32) (x4 : Vec Ideal S1x16 .f32) (T : Nat) (hT : T < 64)
    (h0 : ∀ (g : Fin 2048) (q : Fin 8) (i : Fin 10), x0 (ix3 g q i) = X (ix3 ⟨T * 2048 + g.val, by have := g.isLt; omega⟩ q i))
    (h1 : x1 = W1) (h2 : x2 = B1) (h3 : x3 = W2) (h4 : x4 = B2) (g : Fin 2048) (p : Fin 8) (o : Fin 2) :
    k0_pay1 x0 x1 x2 x3 x4 (ix3 g p o) = packedAt X W1 B1 W2 B2 ⟨T * 2048 + g.val, by have := g.isLt; omega⟩ p o := by
  subst h1 h2 h3 h4
  rw [Payload.pay_apply]
  unfold packedAt packedHidden
  simp only [h0]

/-- The relations between the windows' block numbers at a point: the batch window and the result window move together
    along the groups, at block number `t`; every other block number is zero. -/
theorem idx_facts : ∀ t : Fin cfg0.N,
    win0_0.index t (0 : Fin 3) = win0_5.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 3) = 0 ∧ win0_5.index t (2 : Fin 3) = 0 ∧ win0_5.index t (0 : Fin 3) < 64 :=
  (by decide +kernel : ∀ t : Fin grid0.N, _)

/-- WHAT POINT `t` WRITES BACK is its block of the packed computation on the arrays the launch finds. -/
theorem flushed_eq (c : Dev nD) (t : Fin cfg0.N) :
    (dats m 0 c).flushed 5 t = ((cfg0.win 5).blk t).view.read (Elt Ideal)
      (packedArr (V m c main_v14) (V m c main_v6) (V m c main_v9) (V m c main_v10) (V m c main_v13)) := by
  show (cfg0.win 5).cut (grid0.coords t) ((dats m 0 c).after 5 t) = _
  rw [after0_5]
  unfold out0_5
  rw [View.canon_unit_zero zeros3]
  simp only [View.ld_unit_zero (S := S2048x8x10) zeros3, View.ld_unit_zero (S := S80x160) zeros2,
    View.ld_unit_zero (S := S1x160) zeros2, View.ld_unit_zero (S := S160x16) zeros2, View.ld_unit_zero (S := S1x16) zeros2]
  obtain ⟨e00, e01, e02, e10, e11, e20, e21, e30, e31, e40, e41, e51, e52, e5lt⟩ := idx_facts t
  funext y
  obtain ⟨g, p, o, rfl⟩ : ∃ (g : Fin 2048) (p : Fin 8) (o : Fin 2), y = ix3 g p o := ⟨y 0, y 1, y 2, eq_ix3 y⟩
  show k0_pay1 (iblk m c 0 t) (iblk m c 1 t) (iblk m c 2 t) (iblk m c 3 t) (iblk m c 4 t) (ix3 g p o)
    = packedArr (V m c main_v14) (V m c main_v6) (V m c main_v9) (V m c main_v10) (V m c main_v13)
        (((cfg0.win 5).blk t).view.emb (ix3 g p o))
  refine (point_eq (V m c main_v14) (V m c main_v6) (V m c main_v9) (V m c main_v10) (V m c main_v13)
    (iblk m c 0 t) (iblk m c 1 t) (iblk m c 2 t) (iblk m c 3 t) (iblk m c 4 t) (win0_5.index t (0 : Fin 3)) e5lt
    ?_ ?_ ?_ ?_ ?_ g p o).trans ?_
  · intro g' q i
    show V m c main_v14 (((cfg0.win 0).blk t).view.emb (ix3 g' q i)) = V m c main_v14 _
    refine congrArg (V m c main_v14) (funext fun a => Fin.ext ?_)
    match a with
    | ⟨0, _⟩ => show win0_0.index t (0 : Fin 3) * 2048 + 1 * g'.val = win0_5.index t (0 : Fin 3) * 2048 + g'.val; omega
    | ⟨1, _⟩ => show win0_0.index t (1 : Fin 3) * 8 + 1 * q.val = q.val; omega
    | ⟨2, _⟩ => show win0_0.index t (2 : Fin 3) * 10 + 1 * i.val = i.val; omega
  · funext z
    show V m c main_v6 (((cfg0.win 1).blk t).view.emb z) = V m c main_v6 z
    refine congrArg (V m c main_v6) (funext fun a => Fin.ext ?_)
    match a with
    | ⟨0, _⟩ => show win0_1.index t (0 : Fin 2) * 80 + 1 * (z 0).val = (z 0).val; omega
    | ⟨1, _⟩ => show win0_1.index t (1 : Fin 2) * 160 + 1 * (z 1).val = (z 1).val; omega
  · funext z
    show V m c main_v9 (((cfg0.win 2).blk t).view.emb z) = V m c main_v9 z
    refine congrArg (V m c main_v9) (funext fun a => Fin.ext ?_)
    match a with
    | ⟨0, _⟩ => show win0_2.index t (0 : Fin 2) * 1 + 1 * (z 0).val = (z 0).val; omega
    | ⟨1, _⟩ => show win0_2.index t (1 : Fin 2) * 160 + 1 * (z 1).val = (z 1).val; omega
  · funext z
    show V m c main_v10 (((cfg0.win 3).blk t).view.emb z) = V m c main_v10 z
    refine congrArg (V m c main_v10) (funext fun a => Fin.ext ?_)
    match a with
    | ⟨0, _⟩ => show win0_3.index t (0 : Fin 2) * 160 + 1 * (z 0).val = (z 0).val; omega
    | ⟨1, _⟩ => show win0_3.index t (1 : Fin 2) * 16 + 1 * (z 1).val = (z 1).val; omega
  · funext z
    show V m c main_v13 (((cfg0.win 4).blk t).view.emb z) = V m c main_v13 z
    refine congrArg (V m c main_v13) (funext fun a => Fin.ext ?_)
    match a with
    | ⟨0, _⟩ => show win0_4.index t (0 : Fin 2) * 1 + 1 * (z 0).val = (z 0).val; omega
    | ⟨1, _⟩ => show win0_4.index t (1 : Fin 2) * 16 + 1 * (z 1).val = (z 1).val; omega
  · refine packedArr_at _ _ _ _ _ _ _ p o ?_ ?_ ?_
    · show win0_5.index t (0 : Fin 3) * 2048 + 1 * g.val = win0_5.index t (0 : Fin 3) * 2048 + g.val; omega
    · show win0_5.index t (1 : Fin 3) * 8 + 1 * p.val = p.val; omega
    · show win0_5.index t (2 : Fin 3) * 2 + 1 * o.val = o.val; omega

/-! ## The cover -/

/-- An index of the result is in point `t`'s block iff each coordinate is in the block's range on its axis. -/
theorem mem_blk (t : Fin cfg0.N) (i : S131072x8x2.Idx) :
    i ∈ ((cfg0.win 5).blk t).view.set ↔ ∀ a : Fin 3, win0_5.index t a * S2048x8x2.size a ≤ (i a).val
      ∧ (i a).val < win0_5.index t a * S2048x8x2.size a + S2048x8x2.size a := by
  show i ∈ ((View.whole main_v15).slice (win0_5.rect t)).set ↔ _
  rw [View.set_slice_whole, Rect.mem_set_unit]
  exact Iff.rfl

/-- Every block of groups is some point's. -/
theorem idx_onto : ∀ q : Fin 64, ∃ t : Fin cfg0.N, win0_5.index t = ![q.val, 0, 0] :=
  (by decide +kernel : ∀ q : Fin 64, ∃ t : Fin grid0.N, win0_5.index t = ![q.val, 0, 0])

/-- Every entry of the result lies in the block of the point that handles its group: group `G` in block `G / 2048`. -/
theorem cover (i : S131072x8x2.Idx) :
    ∃ t : Fin cfg0.N, (cfg0.win 5).flush t = true ∧ i ∈ ((cfg0.win 5).blk t).view.set := by
  have hi0 : (i 0).val < 131072 := (i 0).isLt
  have hi1 : (i 1).val < 8 := (i 1).isLt
  have hi2 : (i 2).val < 2 := (i 2).isLt
  obtain ⟨t, ht⟩ := idx_onto ⟨(i 0).val / 2048, by omega⟩
  have q0 : win0_5.index t (0 : Fin 3) = (i 0).val / 2048 := congrFun ht 0
  have q1 : win0_5.index t (1 : Fin 3) = 0 := congrFun ht 1
  have q2 : win0_5.index t (2 : Fin 3) = 0 := congrFun ht 2
  refine ⟨t, flush0_5 t, ?_⟩
  rw [mem_blk]
  intro a
  match a with
  | ⟨0, _⟩ =>
    show win0_5.index t (0 : Fin 3) * 2048 ≤ (i 0).val ∧ (i 0).val < win0_5.index t (0 : Fin 3) * 2048 + 2048
    omega
  | ⟨1, _⟩ =>
    show win0_5.index t (1 : Fin 3) * 8 ≤ (i 1).val ∧ (i 1).val < win0_5.index t (1 : Fin 3) * 8 + 8
    omega
  | ⟨2, _⟩ =>
    show win0_5.index t (2 : Fin 3) * 2 ≤ (i 2).val ∧ (i 2).val < win0_5.index t (2 : Fin 3) * 2 + 2
    omega

/-- THE RESULT WINDOW'S ARRAY after the run: the packed computation on the arrays the launch finds. -/
theorem final (c : Dev nD) :
    (dats m 0 c).arrAt 5 cfg0.N
      = packedArr (V m c main_v14) (V m c main_v6) (V m c main_v9) (V m c main_v10) (V m c main_v13) :=
  (dats m 0 c).arrAt_eq_of_cover 5 _ (fun t _ => flushed_eq m c t) cover

end Cert.KernelIdeal.KerValue

end
-- ==== Proof.KerRun.lean ====
/-
  The packed program's run, read: its result is the network's output, row by row.

  After the launch the program reshapes the [131072, 8, 2] result to [1048576, 2]: entry (r, o) of the final array is
  entry (r / 8, r % 8, o) of the packed one (the same row-major position). The packed array is the packed computation on
  the five arrays the launch finds; those are the grouped batch, the block-diagonal weights and the repeated biases of
  the arguments, and on such arrays the packed computation at (g, p, o) is the network's output o on row 8 g + p. With
  g = r / 8 and p = r % 8 that row is r.
-/
import proofs.«108996_g2000706243113128_pallasbulk_423_2_alg».proof.Proof.KerValue

noncomputable section

namespace Cert.KernelIdeal.KerRun

open Cert.KernelIdeal Cert.KernelIdeal.Gen Cert.KernelIdeal.Facts₀ Idealize.ShloMosaic Idealize.ShloMosaic.TcCoe Idealize.SL.Sem
open Idealize.ShloMosaic.ValueIdx Idealize.ShloMosaic.StableHlo Cert.Mlp
open Idealize.ShloMosaic.Pipeline (Dat)

variable (m : (ℓ : Loc nD τ sig) → Buf (Elt Ideal) ℓ) (ρ : Dev nD → PrngReg)

/-- The program's result buffer after the lines that follow the launch: the reshape of the result window's array. -/
theorem tail_eq (c : Dev nD) :
    (Pipeline.afterTail₀ cfgs (dats m) 0 (V0 m) [hostOps1] c main_v16 : S1048576x2.Idx → EReal)
      = shapeCast S1048576x2 ((dats m 0 c).arrAt 5 cfg0.N) Facts₀.shapeCasts_S131072x8x2_S1048576x2 := by
  unfold Pipeline.afterTail₀
  show StableHlo.after hostOps1 _ (Proc.devRef .tc main_v16) = _
  after_results
  have e : Pipeline.withArrays (cfgs 0).spec c (V0 m c) (fun w => (dats m 0 c).arrAt w (cfgs 0).N) (Proc.devRef .tc main_v15)
      = (dats m 0 c).arrAt 5 cfg0.N := Pipeline.withArrays_arr spec0 launch0.win.arr_inj c _ _ 5
  rw [e]
  rfl

/-- The program's result is the network's output array of the arguments. -/
theorem result_eq (c : Dev nD) :
    (Pipeline.afterTail₀ cfgs (dats m) 0 (V0 m) [hostOps1] c main_v16 : S1048576x2.Idx → EReal)
      = mlp (m ((c : Thread nD τ).loc main_arg0)) (m ((c : Thread nD τ).loc main_arg1)) (m ((c : Thread nD τ).loc main_arg2))
          (m ((c : Thread nD τ).loc main_arg3)) (m ((c : Thread nD τ).loc main_arg4)) := by
  rw [tail_eq, KerValue.final]
  funext i
  obtain ⟨r, o, rfl⟩ : ∃ (r : Fin 1048576) (o : Fin 2), i = ix2 r o := ⟨i 0, i 1, eq_ix2 i⟩
  refine (shapeCast_apply _ _ (ix2 r o)
    (ix3 ⟨r.val / 8, by have := r.isLt; omega⟩ ⟨r.val % 8, by omega⟩ o) ?_).trans ?_
  · rw [Shape.rowMajor_val_three, Shape.rowMajor_val_two]
    show (r.val / 8 * 8 + r.val % 8) * 2 + o.val = r.val * 2 + o.val
    omega
  · show packedAt (V m c main_v14) (V m c main_v6) (V m c main_v9) (V m c main_v10) (V m c main_v13)
        ⟨r.val / 8, by have := r.isLt; omega⟩ ⟨r.val % 8, by omega⟩ o = _
    rw [Host.V_groups, Host.V_kron1, Host.V_tile1, Host.V_kron2, Host.V_tile2]
    refine (packedAt_eq_mlp (m ((c : Thread nD τ).loc main_arg0)) (m ((c : Thread nD τ).loc main_arg1))
      (m ((c : Thread nD τ).loc main_arg2)) (m ((c : Thread nD τ).loc main_arg3)) (m ((c : Thread nD τ).loc main_arg4))
      _ _ _ _ _
      (fun g q i => Host.groups_apply _ g q i)
      (fun l k => (Host.kron1_apply _ _ l k).trans (by rw [Host.eye_apply]))
      (fun k => Host.tile1_apply _ k)
      (fun k c' => (Host.kron2_apply _ _ k c').trans (by rw [Host.eye_apply]))
      (fun c' => Host.tile2_apply _ c')
      ⟨r.val / 8, by have := r.isLt; omega⟩ ⟨r.val % 8, by omega⟩ o).trans ?_
    refine congrArg (fun R : Fin 1048576 => mlp _ _ _ _ _ (ix2 R o)) (Fin.ext ?_)
    show 8 * (r.val / 8) + r.val % 8 = r.val
    omega

/-- THE RUN: every weakly fair execution of the packed program terminates, its result buffer holding the network's
    output array of the arguments, the arguments unchanged. -/
theorem run : θ_run (defs (F := Ideal)) (onTc (τ := τ) (main (F := Ideal))) ⟨m, fun _ => 0, ρ⟩ fun r => ∀ c : Dev nD,
      r.2.mem ((c : Thread nD τ).loc main_v16)
          = mlp (m ((c : Thread nD τ).loc main_arg0)) (m ((c : Thread nD τ).loc main_arg1)) (m ((c : Thread nD τ).loc main_arg2))
              (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerRun

end
-- ==== Proof.RefPayload.lean ====
/-
  One entry of what the reference body stores.

  The body loads a block of 8192 batch rows together with the two weight matrices and the two bias rows, and stores

      relu (rows · w1 + b1) · w2 + b2

  as an 8192 × 2 block. Read at row r and column o of that block, every operation opens up at the entry: the two
  matrix products into zero accumulators are sums over the single contracted coordinate, the bias rows are stretched
  along the batch axis so only their column matters, and the additions and the maximum act entry by entry. The entry
  therefore depends on row r of the loaded rows only, and on all of the weights.
-/
import proofs.«108996_g2000706243113128_pallasbulk_423_2_alg».proof.Proof.Gen.ReferenceIdeal.Skeleton
import proofs.«108996_g2000706243113128_pallasbulk_423_2_alg».proof.Proof.LibPlainDot
import proofs.«108996_g2000706243113128_pallasbulk_423_2_alg».proof.Proof.MlpSpec
import Idealize.ShloMosaic.Lib.Pipeline.Value

noncomputable section

namespace Cert.ReferenceIdeal.RefValue

open Cert.ReferenceIdeal Cert.ReferenceIdeal.Gen Idealize.ShloMosaic Idealize.ShloMosaic.ValueIdx

/-- The first bias row stretched over the 8192 rows of a block: entry (r, j) is the row's entry j. -/
theorem bias1_apply (h : S1x20.Broadcasts S8192x20) (b : Vec Ideal S1x20 .f32) (r : Fin 8192) (j : Fin 20) :
    broadcastTo S8192x20 b h (ix2 r j) = b (ix2 0 j) := by
  refine broadcastTo_apply b h (ix2 r j) (ix2 0 j) fun a => ?_
  match a with
  | ⟨0, _⟩ => rfl
  | ⟨1, _⟩ => rfl

/-- The second bias row stretched over the 8192 rows of a block: entry (r, o) is the row's entry o. -/
theorem bias2_apply (h : S1x2.Broadcasts S8192x2) (b : Vec Ideal S1x2 .f32) (r : Fin 8192) (o : Fin 2) :
    broadcastTo S8192x2 b h (ix2 r o) = b (ix2 0 o) := by
  refine broadcastTo_apply b h (ix2 r o) (ix2 0 o) fun a => ?_
  match a with
  | ⟨0, _⟩ => rfl
  | ⟨1, _⟩ => rfl

/-- Entry (r, o) of the stored block: the second layer's affine form of the rectified first layer, from row r of the
    loaded rows. -/
theorem pay_apply (x0 : Vec Ideal S8192x10 .f32) (x1 : Vec Ideal S10x20 .f32) (x2 : Vec Ideal S1x20 .f32)
    (x3 : Vec Ideal S20x2 .f32) (x4 : Vec Ideal S1x2 .f32) (r : Fin 8192) (o : Fin 2) :
    k0_pay1 x0 x1 x2 x3 x4 (ix2 r o)
      = ∑ j : Fin 20, max (∑ i : Fin 10, x0 (ix2 r i) * x1 (ix2 i j) + x2 (ix2 0 j)) Cert.Mlp.zeroW * x3 (ix2 j o)
        + x4 (ix2 0 o) := by
  unfold k0_pay1
  rw [addf_apply, bias2_apply]
  refine congrArg (· + x4 (ix2 0 o)) ?_
  refine (PlainDot.matmul_zero_apply dot_S8192x20_S20x2_S8192x2_1_0_0_1_n_n rfl none _ x3 (ix2 r o)).trans ?_
  refine Finset.sum_congr rfl fun j _ => ?_
  refine congrArg (· * x3 (ix2 j o)) ?_
  show max (matmul dot_S8192x10_S10x20_S8192x20_1_0_0_1_n_n none x0 x1 (constant (F := Ideal) S8192x20 .f32 0x00000000#32) (ix2 r j)
      + broadcastTo S8192x20 x2 broadcasts_S1x20_S8192x20 (ix2 r j)) Cert.Mlp.zeroW = _
  rw [bias1_apply]
  refine congrArg (fun z => max (z + x2 (ix2 0 j)) Cert.Mlp.zeroW) ?_
  exact PlainDot.matmul_zero_apply dot_S8192x10_S10x20_S8192x20_1_0_0_1_n_n rfl none x0 x1 (ix2 r j)

end Cert.ReferenceIdeal.RefValue

end
-- ==== Proof.RefValue.lean ====
/-
  From the blocks the reference writes back to the whole result array.

  The reference runs on a grid of 128 points. Point t stages rows 8192·t … 8192·t + 8191 of the batch together with
  all of both weight matrices and both bias rows, and writes back rows 8192·t … 8192·t + 8191 of the result. Entry (r, o)
  of the block it writes is the perceptron's output for row r of the staged rows (the payload module), that is for row
  8192·t + r of the batch: so each block written back is the restriction of ONE function of the argument arrays, the
  perceptron of the specification, to the block's rows. The 128 blocks are disjoint and fill the 1048576 rows (row R
  lies in the block of point R / 8192), so after the run the result array is that function everywhere.
-/
import proofs.«108996_g2000706243113128_pallasbulk_423_2_alg».proof.Proof.Gen.ReferenceIdeal.Value
import proofs.«108996_g2000706243113128_pallasbulk_423_2_alg».proof.Proof.RefPayload

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the corner of their buffers. -/
theorem corner : (![0, 0] : Fin 2 → Nat) = fun _ => 0 := funext fun a => by fin_cases a <;> rfl

/-- The six index maps over the 128 grid points: the batch rows' window moves with the result's window along the rows
    and both stay at column block 0, the result's row block stays below 128, and the four weight windows never move. -/
theorem index_maps : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) < 128 ∧ win0_5.index t (1 : Fin 2) = 0 :=
  (by decide +kernel : ∀ t : Fin grid0.N, _)

/-- Every one of the 128 row blocks of the result is some grid point's. -/
theorem row_block_onto : ∀ q : Fin 128, ∃ t : Fin cfg0.N, win0_5.index t = ![q.val, 0] :=
  (by decide +kernel : ∀ q : Fin 128, ∃ t : Fin grid0.N, win0_5.index t = ![q.val, 0])

/-- One entry, over plain arrays: if row r of the staged rows is row (k 0) of the batch array and k's column is o, the
    body's stored entry (r, o) is the specification's perceptron at k. -/
theorem entry_eq (A0 : (⟨2, ![1048576, 10]⟩ : Shape).Idx → EReal) (x0 : Vec Ideal S8192x10 .f32)
    (x1 : Vec Ideal S10x20 .f32) (x2 : Vec Ideal S1x20 .f32) (x3 : Vec Ideal S20x2 .f32) (x4 : Vec Ideal S1x2 .f32)
    (r : Fin 8192) (o : Fin 2) (k : (⟨2, ![1048576, 2]⟩ : Shape).Idx)
    (h0 : ∀ i : Fin 10, x0 (ix2 r i) = A0 (ix2 (k 0) i)) (hk1 : k 1 = o) :
    k0_pay1 x0 x1 x2 x3 x4 (ix2 r o) = Cert.Mlp.mlp A0 x1 x2 x3 x4 k := by
  rw [pay_apply]
  show _ = ∑ j : Fin 20, max (∑ i : Fin 10, A0 (ix2 (k 0) i) * x1 (ix2 i j) + x2 (ix2 0 j)) Cert.Mlp.zeroW * x3 (ix2 j (k 1))
      + x4 (ix2 0 (k 1))
  rw [hk1]
  simp only [h0]

/-- The first weight matrix's window is the whole matrix at every point. -/
theorem w1_blk (c : Dev nD) (t : Fin cfg0.N) : (iblk m c 1 t : Vec Ideal S10x20 .f32) = V m c main_arg1 := by
  funext y
  show V m c main_arg1 (((cfg0.win 1).blk t).view.emb y) = V m c main_arg1 y
  refine congrArg (V m c main_arg1) (funext fun a => Fin.ext ?_)
  obtain ⟨-, -, e0, e1, -⟩ := index_maps t
  match a with
  | ⟨0, _⟩ => show win0_1.index t (0 : Fin 2) * 10 + 1 * (y 0).val = (y 0).val; omega
  | ⟨1, _⟩ => show win0_1.index t (1 : Fin 2) * 20 + 1 * (y 1).val = (y 1).val; omega

/-- The first bias row's window is the whole row at every point. -/
theorem b1_blk (c : Dev nD) (t : Fin cfg0.N) : (iblk m c 2 t : Vec Ideal S1x20 .f32) = V m c main_arg2 := by
  funext y
  show V m c main_arg2 (((cfg0.win 2).blk t).view.emb y) = V m c main_arg2 y
  refine congrArg (V m c main_arg2) (funext fun a => Fin.ext ?_)
  obtain ⟨-, -, -, -, e0, e1, -⟩ := index_maps t
  match a with
  | ⟨0, _⟩ => show win0_2.index t (0 : Fin 2) * 1 + 1 * (y 0).val = (y 0).val; omega
  | ⟨1, _⟩ => show win0_2.index t (1 : Fin 2) * 20 + 1 * (y 1).val = (y 1).val; omega

/-- The second weight matrix's window is the whole matrix at every point. -/
theorem w2_blk (c : Dev nD) (t : Fin cfg0.N) : (iblk m c 3 t : Vec Ideal S20x2 .f32) = V m c main_arg3 := by
  funext y
  show V m c main_arg3 (((cfg0.win 3).blk t).view.emb y) = V m c main_arg3 y
  refine congrArg (V m c main_arg3) (funext fun a => Fin.ext ?_)
  obtain ⟨-, -, -, -, -, -, e0, e1, -⟩ := index_maps t
  match a with
  | ⟨0, _⟩ => show win0_3.index t (0 : Fin 2) * 20 + 1 * (y 0).val = (y 0).val; omega
  | ⟨1, _⟩ => show win0_3.index t (1 : Fin 2) * 2 + 1 * (y 1).val = (y 1).val; omega

/-- The second bias row's window is the whole row at every point. -/
theorem b2_blk (c : Dev nD) (t : Fin cfg0.N) : (iblk m c 4 t : Vec Ideal S1x2 .f32) = V m c main_arg4 := by
  funext y
  show V m c main_arg4 (((cfg0.win 4).blk t).view.emb y) = V m c main_arg4 y
  refine congrArg (V m c main_arg4) (funext fun a => Fin.ext ?_)
  obtain ⟨-, -, -, -, -, -, -, -, e0, e1, -⟩ := index_maps t
  match a with
  | ⟨0, _⟩ => show win0_4.index t (0 : Fin 2) * 1 + 1 * (y 0).val = (y 0).val; omega
  | ⟨1, _⟩ => show win0_4.index t (1 : Fin 2) * 2 + 1 * (y 1).val = (y 1).val; omega

/-- Row r of the batch rows staged at point t is the batch array's row under row r of the result block of t. -/
theorem rows_blk (c : Dev nD) (t : Fin cfg0.N) (r : Fin 8192) (o : Fin 2) (i : Fin 10) :
    (iblk m c 0 t : Vec Ideal S8192x10 .f32) (ix2 r i)
      = V m c main_arg0 (ix2 ((((cfg0.win 5).blk t).view.emb (ix2 r o) : S1048576x2.Idx) 0) i) := by
  show V m c main_arg0 (((cfg0.win 0).blk t).view.emb (ix2 r i)) = _
  refine congrArg (V m c main_arg0) (funext fun a => Fin.ext ?_)
  obtain ⟨e0, e1, -⟩ := index_maps t
  match a with
  | ⟨0, _⟩ => show win0_0.index t (0 : Fin 2) * 8192 + 1 * r.val = win0_5.index t (0 : Fin 2) * 8192 + 1 * r.val; omega
  | ⟨1, _⟩ => show win0_0.index t (1 : Fin 2) * 10 + 1 * i.val = i.val; omega

/-- WHAT POINT t WRITES BACK is block t of the perceptron of the argument arrays. -/
theorem flushed_eq (c : Dev nD) (t : Fin cfg0.N) :
    (dats m 0 c).flushed 5 t = ((cfg0.win 5).blk t).view.read (Elt Ideal)
      (Cert.Mlp.mlp (V m c main_arg0) (V m c main_arg1) (V m c main_arg2) (V m c main_arg3) (V m c main_arg4)) := by
  rw [Value.flushed5]
  unfold out0_5
  rw [View.canon_unit_zero corner]
  simp only [View.ld_unit_zero (S := S8192x10) corner, View.ld_unit_zero (S := S10x20) corner,
    View.ld_unit_zero (S := S1x20) corner, View.ld_unit_zero (S := S20x2) corner, View.ld_unit_zero (S := S1x2) corner]
  funext y
  obtain ⟨r, o, rfl⟩ : ∃ (r : Fin 8192) (o : Fin 2), y = ix2 r o := ⟨y 0, y 1, eq_ix2 y⟩
  show k0_pay1 (iblk m c 0 t) (iblk m c 1 t) (iblk m c 2 t) (iblk m c 3 t) (iblk m c 4 t) (ix2 r o)
    = Cert.Mlp.mlp (V m c main_arg0) (V m c main_arg1) (V m c main_arg2) (V m c main_arg3) (V m c main_arg4)
        (((cfg0.win 5).blk t).view.emb (ix2 r o))
  rw [w1_blk, b1_blk, w2_blk, b2_blk]
  refine entry_eq _ _ _ _ _ _ r o _ (fun i => rows_blk m c t r o i) (Fin.ext ?_)
  obtain ⟨-, -, -, -, -, -, -, -, -, -, -, e1⟩ := index_maps t
  show win0_5.index t (1 : Fin 2) * 2 + 1 * o.val = o.val
  omega

/-- An index of the result array is in point t's block iff each coordinate is in the block's range on its axis. -/
theorem mem_blk (t : Fin cfg0.N) (i : S1048576x2.Idx) :
    i ∈ ((cfg0.win 5).blk t).view.set ↔ ∀ a : Fin 2, win0_5.index t a * S8192x2.size a ≤ (i a).val
      ∧ (i a).val < win0_5.index t a * S8192x2.size a + S8192x2.size a := by
  show i ∈ ((View.whole main_v0).slice (win0_5.rect t)).set ↔ _
  rw [View.set_slice_whole, Rect.mem_set_unit]
  exact Iff.rfl

/-- Every index of the result array is in some point's block: row R is in row block R / 8192, and there is one
    column block. -/
theorem cover (i : S1048576x2.Idx) :
    ∃ t : Fin cfg0.N, (cfg0.win 5).flush t = true ∧ i ∈ ((cfg0.win 5).blk t).view.set := by
  have hi0 : (i 0).val < 1048576 := (i 0).isLt
  have hi1 : (i 1).val < 2 := (i 1).isLt
  obtain ⟨t, ht⟩ := row_block_onto ⟨(i 0).val / 8192, by omega⟩
  have q0 : win0_5.index t (0 : Fin 2) = (i 0).val / 8192 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 8192 ≤ (i 0).val ∧ (i 0).val < win0_5.index t (0 : Fin 2) * 8192 + 8192
    omega
  | ⟨1, _⟩ =>
    show win0_5.index t (1 : Fin 2) * 2 ≤ (i 1).val ∧ (i 1).val < win0_5.index t (1 : Fin 2) * 2 + 2
    omega

/-- THE RESULT ARRAY after the run is the perceptron of the argument arrays as launched. -/
theorem final (c : Dev nD) :
    (dats m 0 c).arrAt 5 cfg0.N
      = Cert.Mlp.mlp (m ((c : Thread nD τ).loc main_arg0)) (m ((c : Thread nD τ).loc main_arg1))
          (m ((c : Thread nD τ).loc main_arg2)) (m ((c : Thread nD τ).loc main_arg3)) (m ((c : Thread nD τ).loc main_arg4)) := by
  rw [← V_main_arg0 m c, ← V_main_arg1 m c, ← V_main_arg2 m c, ← V_main_arg3 m c, ← V_main_arg4 m c]
  exact (dats m 0 c).arrAt_eq_of_cover 5
    (Cert.Mlp.mlp (V m c main_arg0) (V m c main_arg1) (V m c main_arg2) (V m c main_arg3) (V m c main_arg4))
    (fun t _ => flushed_eq m c t) cover

/-- The run, read: at the compiled mesh, from any memory with zero counters, every weakly fair execution of the
    reference terminates with the result array holding the perceptron of the argument arrays, and the five arguments
    as launched. -/
theorem run : θ_run (defs (F := Ideal)) (onTc (τ := τ) (main (F := Ideal))) ⟨m, fun _ => 0, ρ⟩ fun r => ∀ c : Dev nD,
      r.2.mem ((c : Thread nD τ).loc main_v0)
          = Cert.Mlp.mlp (m ((c : Thread nD τ).loc main_arg0)) (m ((c : Thread nD τ).loc main_arg1))
              (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.ReferenceIdeal.RefValue

end
-- ==== Proof.lean ====
/-
  A two-layer perceptron over a batch of 1048576 rows, y = relu (x · w1 + b1) · w2 + b2 with 10 inputs, 20 hidden units
  and 2 outputs, computed two ways, and the proof that on the extended reals the two ways give the same array.

  The reference takes 8192 rows at a time and forms the two products directly. The kernel lays eight consecutive rows
  side by side as one row of 80 entries and multiplies by matrices that carry eight copies of each layer's weights down
  the diagonal (zeros elsewhere) and eight copies of each bias, 2048 such packed rows at a time; the [131072, 8, 2]
  result is read back as [1048576, 2].

  Both are the function `Cert.Mlp.mlp` of the argument arrays (Proof/MlpSpec.lean):
  * the reference directly — each product accumulated from zero is the plain sum over the contracted axis, and the
    128 row blocks tile the result (Proof/RefPayload.lean, Proof/RefValue.lean);
  * the kernel because in column 20 q + j of the first packed product every term outside copy q is a product with
    zero, and zero times any extended real is zero, so the column is the ordinary first-layer sum of row 8 g + q; the
    second layer collapses the same way (Proof/PackedAlgebra.lean), the packed arrays being read entry by entry in
    Proof/KerHost.lean, the body's result in Proof/KerPayload.lean, the 64 blocks and the final reshape in
    Proof/KerValue.lean and Proof/KerRun.lean.
  No step divides, cancels or distributes, so the finiteness of the inputs is never used. The idealization rewrote
  nothing, so the conjunct about it is trivially true; the three frames are the generated ones.
-/
import proofs.«108996_g2000706243113128_pallasbulk_423_2_alg».proof.Defs
import proofs.«108996_g2000706243113128_pallasbulk_423_2_alg».proof.Proof.Gen.Kernel
import proofs.«108996_g2000706243113128_pallasbulk_423_2_alg».proof.Proof.Gen.Kernel.Skeleton
import proofs.«108996_g2000706243113128_pallasbulk_423_2_alg».proof.Proof.Gen.Kernel.Launch
import proofs.«108996_g2000706243113128_pallasbulk_423_2_alg».proof.Proof.Gen.Kernel.Points
import proofs.«108996_g2000706243113128_pallasbulk_423_2_alg».proof.Proof.Gen.Kernel.Frame
import proofs.«108996_g2000706243113128_pallasbulk_423_2_alg».proof.Proof.Gen.KernelIdeal
import proofs.«108996_g2000706243113128_pallasbulk_423_2_alg».proof.Proof.Gen.KernelIdeal.Skeleton
import proofs.«108996_g2000706243113128_pallasbulk_423_2_alg».proof.Proof.Gen.KernelIdeal.Launch
import proofs.«108996_g2000706243113128_pallasbulk_423_2_alg».proof.Proof.Gen.KernelIdeal.Points
import proofs.«108996_g2000706243113128_pallasbulk_423_2_alg».proof.Proof.Gen.KernelIdeal.Frame
import proofs.«108996_g2000706243113128_pallasbulk_423_2_alg».proof.Proof.Gen.ReferenceIdeal
import proofs.«108996_g2000706243113128_pallasbulk_423_2_alg».proof.Proof.Gen.ReferenceIdeal.Skeleton
import proofs.«108996_g2000706243113128_pallasbulk_423_2_alg».proof.Proof.Gen.ReferenceIdeal.Launch
import proofs.«108996_g2000706243113128_pallasbulk_423_2_alg».proof.Proof.Gen.ReferenceIdeal.Points
import proofs.«108996_g2000706243113128_pallasbulk_423_2_alg».proof.Proof.Gen.ReferenceIdeal.Frame
import proofs.«108996_g2000706243113128_pallasbulk_423_2_alg».proof.Proof.Gen.Pre_finite_inputs
import Idealize.ShloMosaic.Adequacy
import Idealize.ShloMosaic.Init
import proofs.«108996_g2000706243113128_pallasbulk_423_2_alg».proof.Proof.KerRun
import proofs.«108996_g2000706243113128_pallasbulk_423_2_alg».proof.Proof.RefValue

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- And so does the reference, itself a blocked kernel. -/
theorem frame_referenceIdeal : Cert.frame_ReferenceIdeal := fun m ρ _ => Cert.ReferenceIdeal.Gen.frame m ρ

/-- From memories that agree on the five arguments both programs end with the perceptron's output array of those
    arguments in their result buffers. -/
theorem algebraic : Cert.algebraic_KernelIdeal_ReferenceIdeal := by
  intro m ρ m' ρ' _ hagree
  refine ⟨_, Cert.KernelIdeal.KerRun.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
